-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S128 .f32) (main_arg7 : FVec F S128x16 .f32) (main_arg8 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg7
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S50000x128 .f32) (main_arg1 : IVec S2x640000 32) (main_arg2 : IVec S50000 32) (main_arg3 : FVec F S128x128 .f32) (main_arg4 : FVec F S128 .f32) (main_arg5 : FVec F S128x128 .f32) (main_arg6 : FVec F S128 .f32) (main_arg7 : FVec F S128x16 .f32) (main_arg8 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x640000 : Shape := ⟨2, ![2, 640000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S5000x128 : Shape := ⟨2, ![5000, 128]⟩
abbrev S690000x128 : Shape := ⟨2, ![690000, 128]⟩
abbrev S1x128 : Shape := ⟨2, ![1, 128]⟩
abbrev S500x128 : Shape := ⟨2, ![500, 128]⟩
abbrev S50000x1 : Shape := ⟨2, ![50000, 1]⟩
abbrev S500x16 : Shape := ⟨2, ![500, 16]⟩
abbrev S1x16 : Shape := ⟨2, ![1, 16]⟩
abbrev S500 : Shape := ⟨1, ![500]⟩
abbrev S500x1 : Shape := ⟨2, ![500, 1]⟩

abbrev nBuf : Space → Nat
  | .hbm => 103
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S50000, .i32⟩
  | .hbm, ⟨10, _⟩ => ⟨S1x640000, .i32⟩
  | .hbm, ⟨11, _⟩ => ⟨S640000, .i32⟩
  | .hbm, ⟨12, _⟩ => ⟨S690000, .i32⟩
  | .hbm, ⟨13, _⟩ => ⟨S1x640000, .i32⟩
  | .hbm, ⟨14, _⟩ => ⟨S640000, .i32⟩
  | .hbm, ⟨15, _⟩ => ⟨S690000, .i32⟩
  | .hbm, ⟨16, _⟩ => ⟨S_, .f32⟩
  | .hbm, ⟨17, _⟩ => ⟨S690000, .f32⟩
  | .hbm, ⟨18, _⟩ => ⟨S_, .f32⟩
  | .hbm, ⟨19, _⟩ => ⟨S50000, .f32⟩
  | .hbm, ⟨20, _⟩ => ⟨S690000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S690000, .i32⟩
  | .hbm, ⟨35, _⟩ => ⟨S690000, .i1⟩
  | .hbm, ⟨36, _⟩ => ⟨S_, .i32⟩
  | .hbm, ⟨37, _⟩ => ⟨S690000, .i32⟩
  | .hbm, ⟨38, _⟩ => ⟨S690000, .i32⟩
  | .hbm, ⟨39, _⟩ => ⟨S690000, .i32⟩
  | .hbm, ⟨40, _⟩ => ⟨S690000x1, .i32⟩
  | .hbm, ⟨41, _⟩ => ⟨S690000, .f32⟩
  | .hbm, ⟨42, _⟩ => ⟨S_, .i32⟩
  | .hbm, ⟨43, _⟩ => ⟨S690000, .i32⟩
  | .hbm, ⟨44, _⟩ => ⟨S690000, .i1⟩
  | .hbm, ⟨45, _⟩ => ⟨S_, .i32⟩
  | .hbm, ⟨46, _⟩ => ⟨S690000, .i32⟩
  | .hbm, ⟨47, _⟩ => ⟨S690000, .i32⟩
  | .hbm, ⟨48, _⟩ => ⟨S690000, .i32⟩
  | .hbm, ⟨49, _⟩ => ⟨S690000x1, .i32⟩
  | .hbm, ⟨50, _⟩ => ⟨S690000, .f32⟩
  | .hbm, ⟨51, _⟩ => ⟨S690000, .f32⟩
  | .hbm, ⟨52, _⟩ => ⟨S50000x128, .f32⟩
  | .hbm, ⟨53, _⟩ => ⟨S_, .i32⟩
  | .hbm, ⟨54, _⟩ => ⟨S690000, .i32⟩
  | .hbm, ⟨55, _⟩ => ⟨S690000, .i1⟩
  | .hbm, ⟨56, _⟩ => ⟨S_, .i32⟩
  | .hbm, ⟨57, _⟩ => ⟨S690000, .i32⟩
  | .hbm, ⟨58, _⟩ => ⟨S690000, .i32⟩
  | .hbm, ⟨59, _⟩ => ⟨S690000, .i32⟩
  | .hbm, ⟨60, _⟩ => ⟨S690000x1, .i32⟩
  | .hbm, ⟨61, _⟩ => ⟨S690000x128, .f32⟩
  | .hbm, ⟨62, _⟩ => ⟨S690000x1, .f32⟩
  | .hbm, ⟨63, _⟩ => ⟨S690000x128, .f32⟩
  | .hbm, ⟨64, _⟩ => ⟨S690000x128, .f32⟩
  | .hbm, ⟨65, _⟩ => ⟨S_, .f32⟩
  | .hbm, ⟨66, _⟩ => ⟨S50000x128, .f32⟩
  | .hbm, ⟨67, _⟩ => ⟨S690000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .i32⟩
  | .hbm, ⟨77, _⟩ => ⟨S690000, .i32⟩
  | .hbm, ⟨78, _⟩ => ⟨S690000, .i1⟩
  | .hbm, ⟨79, _⟩ => ⟨S_, .i32⟩
  | .hbm, ⟨80, _⟩ => ⟨S690000, .i32⟩
  | .hbm, ⟨81, _⟩ => ⟨S690000, .i32⟩
  | .hbm, ⟨82, _⟩ => ⟨S690000, .i32⟩
  | .hbm, ⟨83, _⟩ => ⟨S690000x1, .i32⟩
  | .hbm, ⟨84, _⟩ => ⟨S690000x128, .f32⟩
  | .hbm, ⟨85, _⟩ => ⟨S690000x1, .f32⟩
  | .hbm, ⟨86, _⟩ => ⟨S690000x128, .f32⟩
  | .hbm, ⟨87, _⟩ => ⟨S690000x128, .f32⟩
  | .hbm, ⟨88, _⟩ => ⟨S_, .f32⟩
  | .hbm, ⟨89, _⟩ => ⟨S50000x128, .f32⟩
  | .hbm, ⟨90, _⟩ => ⟨S690000x1, .i32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S500x128, .f32⟩
  | .hbm, ⟨100, _⟩ => ⟨S50000x1, .i32⟩
  | .hbm, ⟨101, _⟩ => ⟨S500x128, .f32⟩
  | .hbm, ⟨102, _⟩ => ⟨S500x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S500x128, .f32⟩
  | .local _ .vmem, ⟨11, _⟩ => ⟨S128x16, .f32⟩
  | .local _ .vmem, ⟨12, _⟩ => ⟨S16, .f32⟩
  | .local _ .vmem, ⟨13, _⟩ => ⟨S500x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call2_cst : Ref sig .tc := ⟨.hbm, 95, rfl⟩
abbrev main_call2_v0 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S500x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S500x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  bcast_S_S500x128 : S_.BroadcastsInDim S500x128 (![] : Fin 0 → Fin S500x128.rank)
  bcast_S50000_S50000x1_0 : S50000.BroadcastsInDim S50000x1 (![0] : Fin 1 → Fin S50000x1.rank)
  inb_S500x128_S500x128_0_0 : ∀ a, (![0, 0] : Fin 2 → Nat) a + S500x128.size a ≤ S500x128.size a
  h_S500x128 : 0 < S500x128.numel
  shapeCasts_S500x128_S500x128 : S500x128.ShapeCasts S500x128
  inb_S128x16_S128x16_0_0 : ∀ a, (![0, 0] : Fin 2 → Nat) a + S128x16.size a ≤ S128x16.size a
  h_S128x16 : 0 < S128x16.numel
  inb_S16_S16_0 : ∀ a, (![0] : Fin 1 → Nat) a + S16.size a ≤ S16.size a
  h_S16 : 0 < S16.numel
  shapeCasts_S16_S1x16 : S16.ShapeCasts S1x16
  broadcasts_S1x16_S500x16 : S1x16.Broadcasts S500x16
  reduces_S500x16_S500 : S500x16.Reduces [1] S500
  shapeCasts_S500_S500x1 : S500.ShapeCasts S500x1
  broadcasts_S500x1_S500x16 : S500x1.Broadcasts S500x16
  inb_S500x16_S500x16_0_0 : ∀ a, (![0, 0] : Fin 2 → Nat) a + S500x16.size a ≤ S500x16.size a
  h_S500x16 : 0 < S500x16.numel
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S5000x128_S128x128_S5000x128_1_0_0_1_n_n_wf : DotDims.WF S5000x128 S128x128 S5000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  scatter_S500x128_S50000x1_S50000x128_1_0_0_1_wf : ScatterDims.WF S500x128 S50000x1 S50000x128 [1] [0] [0] 1
  dot_S500x128_S128x16_S500x16_1_0_0_1_n_n_wf : DotDims.WF S500x128 S128x16 S500x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S500x128.size a ≤ S500x128.size a
  hwx2_0 : ∀ i : grid2.Coords, EltTy.bits .f32 = 32 ∨ (Rect.block (s := S500x128) S500x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x16.size a ≤ S128x16.size a
  hwx2_1 : ∀ i : grid2.Coords, EltTy.bits .f32 = 32 ∨ (Rect.block (s := S128x16) S128x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16.size a ≤ S16.size a
  hwx2_2 : ∀ i : grid2.Coords, EltTy.bits .f32 = 32 ∨ (Rect.block (s := S16) S16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S500x16.size a ≤ S500x16.size a
  hwx2_3 : ∀ i : grid2.Coords, EltTy.bits .f32 = 32 ∨ (Rect.block (s := S500x16) S500x16.size (cc2_transform_3 i) (hinb2_3 i)).WholeWords (EltTy.packing .f32)

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def dot_S500x128_S128x16_S500x16_1_0_0_1_n_n : DotDims S500x128 S128x16 S500x16 where
  lhsContracting := [1]
  rhsContracting := [0]
  lhsNonContracting := [0]
  rhsNonContracting := [1]
  lhsBatch := []
  rhsBatch := []
  wf := dot_S500x128_S128x16_S500x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v70) S500x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S500x16.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x128 : Shape := ⟨2, ![1, 128]⟩
abbrev S500x128 : Shape := ⟨2, ![500, 128]⟩
abbrev S50000x1 : Shape := ⟨2, ![50000, 1]⟩
abbrev S500x16 : Shape := ⟨2, ![500, 16]⟩
abbrev S1x16 : Shape := ⟨2, ![1, 16]⟩
abbrev S500 : Shape := ⟨1, ![500]⟩
abbrev S500x1 : Shape := ⟨2, ![500, 1]⟩

abbrev nBuf : Space → Nat
  | .hbm => 140
  | .vmem => 0
  | .smem => 0
  | _ => 0

abbrev hbmTy0_0 (i : Nat) : BufTy := match i % 128 with
  | 0 => ⟨S50000x128, .f32⟩
  | 1 => ⟨S2x640000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x16, .f32⟩
  | 8 => ⟨S16, .f32⟩
  | 9 => ⟨S50000, .i32⟩
  | 10 => ⟨S1x640000, .i32⟩
  | 11 => ⟨S640000, .i32⟩
  | 12 => ⟨S690000, .i32⟩
  | 13 => ⟨S1x640000, .i32⟩
  | 14 => ⟨S640000, .i32⟩
  | 15 => ⟨S690000, .i32⟩
  | 16 => ⟨S_, .f32⟩
  | 17 => ⟨S690000, .f32⟩
  | 18 => ⟨S_, .f32⟩
  | 19 => ⟨S50000, .f32⟩
  | 20 => ⟨S690000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S50000x128, .f32⟩
  | 34 => ⟨S_, .i32⟩
  | 35 => ⟨S690000, .i32⟩
  | 36 => ⟨S690000, .i1⟩
  | 37 => ⟨S_, .i32⟩
  | 38 => ⟨S690000, .i32⟩
  | 39 => ⟨S690000, .i32⟩
  | 40 => ⟨S690000, .i32⟩
  | 41 => ⟨S690000x1, .i32⟩
  | 42 => ⟨S690000, .f32⟩
  | 43 => ⟨S_, .i32⟩
  | 44 => ⟨S690000, .i32⟩
  | 45 => ⟨S690000, .i1⟩
  | 46 => ⟨S_, .i32⟩
  | 47 => ⟨S690000, .i32⟩
  | 48 => ⟨S690000, .i32⟩
  | 49 => ⟨S690000, .i32⟩
  | 50 => ⟨S690000x1, .i32⟩
  | 51 => ⟨S690000, .f32⟩
  | 52 => ⟨S690000, .f32⟩
  | 53 => ⟨S_, .i32⟩
  | 54 => ⟨S690000, .i32⟩
  | 55 => ⟨S690000, .i1⟩
  | 56 => ⟨S_, .i32⟩
  | 57 => ⟨S690000, .i32⟩
  | 58 => ⟨S690000, .i32⟩
  | 59 => ⟨S690000, .i32⟩
  | 60 => ⟨S690000x1, .i32⟩
  | 61 => ⟨S690000x128, .f32⟩
  | 62 => ⟨S690000x1, .f32⟩
  | 63 => ⟨S690000x128, .f32⟩
  | 64 => ⟨S690000x128, .f32⟩
  | 65 => ⟨S_, .f32⟩
  | 66 => ⟨S50000x128, .f32⟩
  | 67 => ⟨S690000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x128, .f32⟩
  | 76 => ⟨S_, .i32⟩
  | 77 => ⟨S690000, .i32⟩
  | 78 => ⟨S690000, .i1⟩
  | 79 => ⟨S_, .i32⟩
  | 80 => ⟨S690000, .i32⟩
  | 81 => ⟨S690000, .i32⟩
  | 82 => ⟨S690000, .i32⟩
  | 83 => ⟨S690000x1, .i32⟩
  | 84 => ⟨S690000, .f32⟩
  | 85 => ⟨S_, .i32⟩
  | 86 => ⟨S690000, .i32⟩
  | 87 => ⟨S690000, .i1⟩
  | 88 => ⟨S_, .i32⟩
  | 89 => ⟨S690000, .i32⟩
  | 90 => ⟨S690000, .i32⟩
  | 91 => ⟨S690000, .i32⟩
  | 92 => ⟨S690000x1, .i32⟩
  | 93 => ⟨S690000, .f32⟩
  | 94 => ⟨S690000, .f32⟩
  | 95 => ⟨S_, .i32⟩
  | 96 => ⟨S690000, .i32⟩
  | 97 => ⟨S690000, .i1⟩
  | 98 => ⟨S_, .i32⟩
  | 99 => ⟨S690000, .i32⟩
  | 100 => ⟨S690000, .i32⟩
  | 101 => ⟨S690000, .i32⟩
  | 102 => ⟨S690000x1, .i32⟩
  | 103 => ⟨S690000x128, .f32⟩
  | 104 => ⟨S690000x1, .f32⟩
  | 105 => ⟨S690000x128, .f32⟩
  | 106 => ⟨S690000x128, .f32⟩
  | 107 => ⟨S_, .f32⟩
  | 108 => ⟨S50000x128, .f32⟩
  | 109 => ⟨S690000x1, .i32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S50000x128, .f32⟩
  | 116 => ⟨S50000x128, .f32⟩
  | 117 => ⟨S_, .f32⟩
  | 118 => ⟨S500x128, .f32⟩
  | 119 => ⟨S50000x1, .i32⟩
  | 120 => ⟨S500x128, .f32⟩
  | 121 => ⟨S500x16, .f32⟩
  | 122 => ⟨S1x16, .f32⟩
  | 123 => ⟨S500x16, .f32⟩
  | 124 => ⟨S500x16, .f32⟩
  | 125 => ⟨S_, .f32⟩
  | 126 => ⟨S500, .f32⟩
  | 127 => ⟨S_, .f32⟩
  | _ => ⟨S50000x128, .f32⟩

abbrev hbmTy0_1 (i : Nat) : BufTy := match i % 128 with
  | 0 => ⟨S500, .f32⟩
  | 1 => ⟨S500, .f32⟩
  | 2 => ⟨S500x1, .f32⟩
  | 3 => ⟨S500x16, .f32⟩
  | 4 => ⟨S500x16, .f32⟩
  | 5 => ⟨S500x16, .f32⟩
  | 6 => ⟨S_, .f32⟩
  | 7 => ⟨S500, .f32⟩
  | 8 => ⟨S500x1, .f32⟩
  | 9 => ⟨S500x1, .f32⟩
  | 10 => ⟨S500x16, .f32⟩
  | 11 => ⟨S500x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_call2_cst : Ref sig .tc := ⟨.hbm, 114, rfl⟩
abbrev main_call2_v0 : Ref sig .tc := ⟨.hbm, 115, rfl⟩
abbrev main_v82 : Ref sig .tc := ⟨.hbm, 116, rfl⟩
abbrev main_cst_17 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v90 : Ref sig .tc := ⟨.hbm, 139, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S500x128 : S_.BroadcastsInDim S500x128 (![] : Fin 0 → Fin S500x128.rank)
  bcast_S50000_S50000x1_0 : S50000.BroadcastsInDim S50000x1 (![0] : Fin 1 → Fin S50000x1.rank)
  bcast_S16_S1x16_1 : S16.BroadcastsInDim S1x16 (![1] : Fin 1 → Fin S1x16.rank)
  bcast_S1x16_S500x16_0_1 : S1x16.BroadcastsInDim S500x16 (![0, 1] : Fin 2 → Fin S500x16.rank)
  reducesTo_S500x16_S500_d1 : S500x16.ReducesTo [1] S500
  h_S_ : 0 < S_.numel
  bcast_S_S500 : S_.BroadcastsInDim S500 (![] : Fin 0 → Fin S500.rank)
  bcast_S500_S500x1_0 : S500.BroadcastsInDim S500x1 (![0] : Fin 1 → Fin S500x1.rank)
  bcast_S500x1_S500x16_0_1 : S500x1.BroadcastsInDim S500x16 (![0, 1] : Fin 2 → Fin S500x16.rank)
  scatter_S50000_S690000x1_S690000_n_0_0_1_wf : ScatterDims.WF S50000 S690000x1 S690000 [] [0] [0] 1
  dot_S50000x128_S128x128_S50000x128_1_0_0_1_n_n_wf : DotDims.WF S50000x128 S128x128 S50000x128 [1] [0] [0] [1] [] []
  gather_S50000_S690000x1_S690000_n_0_n_n_0_1_1_wf : GatherDims.WF S50000 S690000x1 S690000 [] [0] [] [0] [] 1 ![1]
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  scatter_S500x128_S50000x1_S50000x128_1_0_0_1_wf : ScatterDims.WF S500x128 S50000x1 S50000x128 [1] [0] [0] 1
  dot_S500x128_S128x16_S500x16_1_0_0_1_n_n_wf : DotDims.WF S500x128 S128x16 S500x16 [1] [0] [0] [1] [] []

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def dot_S500x128_S128x16_S500x16_1_0_0_1_n_n : DotDims S500x128 S128x16 S500x16 where
  lhsContracting := [1]
  rhsContracting := [0]
  lhsNonContracting := [0]
  rhsNonContracting := [1]
  lhsBatch := []
  rhsBatch := []
  wf := dot_S500x128_S128x16_S500x16_1_0_0_1_n_n_wf

class Facts : Prop extends Facts₀ where

variable [Facts]
-- ==== Proof.HostSpec.lean ====
/-
  The host-side mathematics both programs share, as functions of arrays, each spelt with the reference program's own
  operations (so that the reference's composed term is these functions by unfolding).

  From the edge list `e` (2 × 640000 node numbers): `srcOf e` and `dstOf e` are its two rows with the 50000 self loops
  `0, 1, …, 49999` appended; `wrapIdx` is the index normalisation jnp applies before a gather (a negative index gets the
  axis length added) written as a column; `deg e` counts, by a scatter-add of ones, the edges arriving at each node;
  `dinv e` is `deg^(-1/2)` where the degree is positive and zero elsewhere; `norm e` is the edge weight
  `dinv[src] · dinv[dst]`.

  `layer h src dst w b` is one graph convolution after its dense product `h`: gather the rows `h[src]`, scale each by
  the edge weight, scatter-add them into the destination rows, add the bias along every row, and clamp below at zero.
  `pool h g` adds the rows of `h` into the 500 graph rows given by `g`. `dotRows` is the dense product of a 50000×128 by
  a 128×128 array, `logits` the last affine layer, `logSoftmax` jax's row-wise log-softmax (maximum, shift, exponential,
  sum, logarithm, second shift). `refValue` composes them into the whole network.
-/
import proofs.«159713_j84533546319965_1_alg».proof.Proof.Gen.ReferenceIdeal
import Idealize.ShloMosaic.PureOps.Ideal

noncomputable section

namespace Cert.HostSpec

open Cert.ReferenceIdeal Cert.ReferenceIdeal.Gen Idealize.ShloMosaic

variable {F : FTy → Type} [FloatOps F]

/-- The source end of every edge, the self loops appended. -/
def srcOf (x1 : IVec S2x640000 32) : IVec S690000 32 :=
  concatenate S690000 0 [⟨S640000, (shapeCast _ (extractStridedSlice S1x640000 ![0, 0] x1 slices_S2x640000_S1x640000_0_0) shapeCasts_S1x640000_S640000)⟩, ⟨S50000, (iotaInDim S50000 32 0)⟩] concatenates_S640000_S50000_S690000_d0

/-- The destination end of every edge, the self loops appended. -/
def dstOf (x1 : IVec S2x640000 32) : IVec S690000 32 :=
  concatenate S690000 0 [⟨S640000, (shapeCast _ (extractStridedSlice S1x640000 ![1, 0] x1 slices_S2x640000_S1x640000_1_0) shapeCasts_S1x640000_S640000)⟩, ⟨S50000, (iotaInDim S50000 32 0)⟩] concatenates_S640000_S50000_S690000_d0

/-- A vector of node numbers as a gather's column of start indices: a negative number gets the axis length added. -/
def wrapIdx (v : IVec S690000 32) : IVec S690000x1 32 :=
  broadcastInDim S690000x1 ![0] bcast_S690000_S690000x1_0 (select (cmpi .slt v (broadcastInDim S690000 ![] bcast_S_S690000 (constantI S_ 32 0#32))) (addi v (broadcastInDim S690000 ![] bcast_S_S690000 (constantI S_ 32 50000#32))) v)

/-- The in-degree of every node, counted by scatter-adding a one per edge (self loops included). -/
def deg (x1 : IVec S2x640000 32) : FVec F S50000 .f32 :=
  Host.scatterAdd scatter_S50000_S690000x1_S690000_n_0_0_1 (broadcastInDim S50000 ![] bcast_S_S50000 (constant S_ .f32 0x00000000#32)) (broadcastInDim S690000x1 ![0] bcast_S690000_S690000x1_0 (dstOf x1)) (broadcastInDim S690000 ![] bcast_S_S690000 (constant S_ .f32 0x3F800000#32))

/-- `deg^(-1/2)` where the degree is positive, zero elsewhere. -/
def dinv (x1 : IVec S2x640000 32) : FVec F S50000 .f32 :=
  select (cmpf (F := F) .ogt (deg x1) (broadcastInDim S50000 ![] bcast_S_S50000 (constant S_ .f32 0x00000000#32))) (Host.rsqrt (maximumf (deg x1) (broadcastInDim S50000 ![] bcast_S_S50000 (constant S_ .f32 0x3F800000#32)))) (broadcastInDim S50000 ![] bcast_S_S50000 (id (constant S_ .f32 0x00000000#32)))

/-- The symmetric normalisation weight of every edge: `dinv[src] · dinv[dst]`. -/
def norm (x1 : IVec S2x640000 32) : FVec F S690000 .f32 :=
  mulf (Host.gather gather_S50000_S690000x1_S690000_n_0_n_n_0_1_1 (dinv x1) (wrapIdx (srcOf x1))) (Host.gather gather_S50000_S690000x1_S690000_n_0_n_n_0_1_1 (dinv x1) (wrapIdx (dstOf x1)))

/-- One graph convolution after its dense product `h`: weighted neighbour sum into the destinations, plus the bias, clamped
    below at zero. -/
def layer (h : FVec F S50000x128 .f32) (src dst : IVec S690000 32) (w : FVec F S690000 .f32) (b : FVec F S128 .f32) :
    FVec F S50000x128 .f32 :=
  maximumf (addf (Host.scatterAdd scatter_S50000x128_S690000x1_S690000x128_1_0_0_1 (broadcastInDim S50000x128 ![] bcast_S_S50000x128 (constant S_ .f32 0x00000000#32)) (broadcastInDim S690000x1 ![0] bcast_S690000_S690000x1_0 dst) (mulf (Host.gather gather_S50000x128_S690000x1_S690000x128_1_0_n_n_0_1_1128 h (wrapIdx src)) (broadcastInDim S690000x128 ![0, 1] bcast_S690000x1_S690000x128_0_1 (broadcastInDim S690000x1 ![0] bcast_S690000_S690000x1_0 w)))) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The rows of `h` added into the graph rows named by `x2`. -/
def pool (h : FVec F S50000x128 .f32) (x2 : IVec S50000 32) : FVec F S500x128 .f32 :=
  Host.scatterAdd scatter_S500x128_S50000x1_S50000x128_1_0_0_1 (broadcastInDim S500x128 ![] bcast_S_S500x128 (constant S_ .f32 0x00000000#32)) (broadcastInDim S50000x1 ![0] bcast_S50000_S50000x1_0 x2) h

/-- The dense product of a 50000×128 by a 128×128 array. -/
def dotRows (a : FVec F S50000x128 .f32) (b : FVec F S128x128 .f32) : FVec F S50000x128 .f32 :=
  Host.dotGeneral dot_S50000x128_S128x128_S50000x128_1_0_0_1_n_n none a b

/-- The last affine layer: the pooled rows times the class weights, plus the class bias along every row. -/
def logits (p : FVec F S500x128 .f32) (x7 : FVec F S128x16 .f32) (x8 : FVec F S16 .f32) : FVec F S500x16 .f32 :=
  addf (Host.dotGeneral dot_S500x128_S128x16_S500x16_1_0_0_1_n_n none p x7) (broadcastInDim S500x16 ![0, 1] bcast_S1x16_S500x16_0_1 (broadcastInDim S1x16 ![1] bcast_S16_S1x16_1 x8))

/-- The logits minus the column of their row maxima. -/
def shifted (L : FVec F S500x16 .f32) : FVec F S500x16 .f32 :=
  subf L (broadcastInDim S500x16 ![0, 1] bcast_S500x1_S500x16_0_1 (broadcastInDim S500x1 ![0] bcast_S500_S500x1_0 (maximumf (broadcastInDim S500 ![] bcast_S_S500 (constant S_ .f32 0xFF800000#32)) (Host.reduce FloatOps.maximumf L (constant S_ .f32 0xFF800000#32) reducesTo_S500x16_S500_d1 h_S_))))

/-- jax's row-wise log-softmax of the logits. -/
def logSoftmax (L : FVec F S500x16 .f32) : FVec F S500x16 .f32 :=
  subf (shifted L) (broadcastInDim S500x16 ![0, 1] bcast_S500x1_S500x16_0_1 (Host.log (broadcastInDim S500x1 ![0] bcast_S500_S500x1_0 (Host.reduceAdd (Host.exp (shifted L)) (constant S_ .f32 0x00000000#32) reducesTo_S500x16_S500_d1 h_S_))))

/-- The whole network on the host: two graph convolutions, the pooling, the last layer and its log-softmax. -/
def refValue (x0 : FVec F S50000x128 .f32) (x1 : IVec S2x640000 32) (x2 : IVec S50000 32) (x3 : FVec F S128x128 .f32)
    (x4 : FVec F S128 .f32) (x5 : FVec F S128x128 .f32) (x6 : FVec F S128 .f32) (x7 : FVec F S128x16 .f32) (x8 : FVec F S16 .f32) :
    FVec F S500x16 .f32 :=
  logSoftmax (logits (pool (layer (dotRows (layer (dotRows x0 x3) (srcOf x1) (dstOf x1) (norm x1) x4) x5)
    (srcOf x1) (dstOf x1) (norm x1) x6) x2) x7 x8)

end Cert.HostSpec

end
-- ==== Proof.RefValue.lean ====
/-
  The reference program's composed result term is the shared host-side network `HostSpec.refValue` of its nine argument
  arrays: both are the same operations in the same order, so the equation holds by unfolding the definitions.
-/
import proofs.«159713_j84533546319965_1_alg».proof.Proof.RefRun
import proofs.«159713_j84533546319965_1_alg».proof.Proof.HostSpec

noncomputable section

namespace Cert.ReferenceIdeal.RefValue

open Cert.ReferenceIdeal Idealize.ShloMosaic Idealize.ShloMosaic.TcCoe Idealize.SL.Sem

variable {F : FTy → Type} [FloatOps F]

set_option maxRecDepth 8192 in
/-- The reference's result is the network applied to the launch contents of its arguments. -/
theorem res_eq (m : (ℓ : Loc nD τ sig) → Buf (Elt F) ℓ) (c : Dev nD) :
    Cert.ReferenceIdeal.ValueP.res_main_v90 m c
      = HostSpec.refValue (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold Cert.ReferenceIdeal.ValueP.res_main_v90 HostSpec.refValue HostSpec.logSoftmax HostSpec.shifted HostSpec.logits
    HostSpec.pool HostSpec.layer HostSpec.dotRows HostSpec.norm HostSpec.dinv HostSpec.deg HostSpec.wrapIdx
    HostSpec.srcOf HostSpec.dstOf
  rfl

end Cert.ReferenceIdeal.RefValue

end
-- ==== Proof.KRun.lean ====
/-
  The idealized kernel's run with its result array named.

  The program's @main is eleven segments: stretches of host operations and three kernel regions. The buffer contents at each
  segment boundary are a fold from the launch memory (a stretch applies its operations; a region replaces its arrays by
  what its write-backs leave), and every weakly fair execution ends with every unscoped buffer at the last fold's contents.
  Read at the result buffer this names the result array; read at an argument the fold walks back to the launch memory.
-/
import proofs.«159713_j84533546319965_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_fold : θ_run defs (onTc (τ := τ) (main (F := F))) ⟨m, fun _ => 0, ρ⟩ (fun r => ∀ c : Dev nD,
      r.2.mem ((c.tc : Thread nD τ).loc main_v71) = W11 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v71 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.RunValue

end
-- ==== Proof.KFold.lean ====
/-
  The idealized kernel's buffer contents at the boundaries of its segments, read at the buffers the value depends on.

  A stretch of host operations leaves every buffer it does not write as it was, and a region leaves every buffer other than
  its result array as it was; so the edge lists, the edge weights and the arguments reach every later boundary unchanged.
  At the buffer a stretch computes, its operations compose to the shared host-side functions: the stretch before the first
  region computes the edge ends and weights from the edge list; the stretch between two regions computes one graph
  convolution from the product the region before it left; the last stretch also pools the rows.
-/
import proofs.«159713_j84533546319965_1_alg».proof.Proof.Gen.KernelIdeal.Frame
import proofs.«159713_j84533546319965_1_alg».proof.Proof.HostSpec
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo (after_of_writes_sub)

variable {F : FTy → Type} [FloatOps F]

/-! ## What each stretch leaves unchanged -/

/-- The buffers the operations of `hostOps0` write. -/
abbrev written0 : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem writes0 : (hostOps0 : List (HloOp τ sig (Elt F))).Forall fun op => op.writes ⊆ (written0.map (Proc.devRef (τ := τ) .tc)).toFinset := by
  simp only [hostOps0, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
/-- A buffer that `hostOps0` does not write keeps its contents across it. -/
theorem keep0 (V : Valuation τ sig (Elt F)) (r : Ref sig .tc) (h : r ∉ written0) :
    StableHlo.after hostOps0 V (Proc.devRef .tc r) = V (Proc.devRef .tc r) :=
  StableHlo.after_of_writes_sub hostOps0 V writes0 h

/-- The buffers the operations of `hostOps1` write. -/
abbrev written1 : List (Ref sig .tc) := [main_c_7, main_v33, main_v34, main_c_8, main_v35, main_v36, main_v37, main_v38, main_v39, main_v40, main_v41, main_v42, main_cst_9, main_v43, main_v44, main_v45, main_v46, main_v47, main_v48]
theorem writes1 : (hostOps1 : List (HloOp τ sig (Elt F))).Forall fun op => op.writes ⊆ (written1.map (Proc.devRef (τ := τ) .tc)).toFinset := by
  simp only [hostOps1, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
/-- A buffer that `hostOps1` does not write keeps its contents across it. -/
theorem keep1 (V : Valuation τ sig (Elt F)) (r : Ref sig .tc) (h : r ∉ written1) :
    StableHlo.after hostOps1 V (Proc.devRef .tc r) = V (Proc.devRef .tc r) :=
  StableHlo.after_of_writes_sub hostOps1 V writes1 h

/-- The buffers the operations of `hostOps2` write. -/
abbrev written2 : List (Ref sig .tc) := [main_c_10, main_v51, main_v52, main_c_11, main_v53, main_v54, main_v55, main_v56, main_v57, main_v58, main_v59, main_v60, main_cst_12, main_v61, main_v62, main_v63, main_v64, main_v65, main_v66]
theorem writes2 : (hostOps2 : List (HloOp τ sig (Elt F))).Forall fun op => op.writes ⊆ (written2.map (Proc.devRef (τ := τ) .tc)).toFinset := by
  simp only [hostOps2, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
/-- A buffer that `hostOps2` does not write keeps its contents across it. -/
theorem keep2 (V : Valuation τ sig (Elt F)) (r : Ref sig .tc) (h : r ∉ written2) :
    StableHlo.after hostOps2 V (Proc.devRef .tc r) = V (Proc.devRef .tc r) :=
  StableHlo.after_of_writes_sub hostOps2 V writes2 h

/-- The buffers the operations of `hostOps0_1` write. -/
abbrev written0_1 : List (Ref sig .tc) := [main_call0_v0, main_call0_v1, main_v16]
theorem writes0_1 : (hostOps0_1 : List (HloOp τ sig (Elt F))).Forall fun op => op.writes ⊆ (written0_1.map (Proc.devRef (τ := τ) .tc)).toFinset := by
  simp only [hostOps0_1, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
/-- A buffer that `hostOps0_1` does not write keeps its contents across it. -/
theorem keep0_1 (V : Valuation τ sig (Elt F)) (r : Ref sig .tc) (h : r ∉ written0_1) :
    StableHlo.after hostOps0_1 V (Proc.devRef .tc r) = V (Proc.devRef .tc r) :=
  StableHlo.after_of_writes_sub hostOps0_1 V writes0_1 h

/-- The buffers the operations of `hostOps0_2` write. -/
abbrev written0_2 : List (Ref sig .tc) := [main_c, main_v17, main_v18, main_c_4, main_v19, main_v20, main_v21, main_v22, main_v23, main_c_5, main_v24, main_v25, main_c_6, main_v26, main_v27, main_v28, main_v29, main_v30, main_v31]
theorem writes0_2 : (hostOps0_2 : List (HloOp τ sig (Elt F))).Forall fun op => op.writes ⊆ (written0_2.map (Proc.devRef (τ := τ) .tc)).toFinset := by
  simp only [hostOps0_2, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
/-- A buffer that `hostOps0_2` does not write keeps its contents across it. -/
theorem keep0_2 (V : Valuation τ sig (Elt F)) (r : Ref sig .tc) (h : r ∉ written0_2) :
    StableHlo.after hostOps0_2 V (Proc.devRef .tc r) = V (Proc.devRef .tc r) :=
  StableHlo.after_of_writes_sub hostOps0_2 V writes0_2 h

/-- The buffers the operations of `hostOps1_1` write. -/
abbrev written1_1 : List (Ref sig .tc) := [main_call1_cst, main_call1_v0, main_v49]
theorem writes1_1 : (hostOps1_1 : List (HloOp τ sig (Elt F))).Forall fun op => op.writes ⊆ (written1_1.map (Proc.devRef (τ := τ) .tc)).toFinset := by
  simp only [hostOps1_1, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
/-- A buffer that `hostOps1_1` does not write keeps its contents across it. -/
theorem keep1_1 (V : Valuation τ sig (Elt F)) (r : Ref sig .tc) (h : r ∉ written1_1) :
    StableHlo.after hostOps1_1 V (Proc.devRef .tc r) = V (Proc.devRef .tc r) :=
  StableHlo.after_of_writes_sub hostOps1_1 V writes1_1 h

/-- The buffers the operations of `hostOps2_1` write. -/
abbrev written2_1 : List (Ref sig .tc) := [main_call2_cst, main_call2_v0, main_v67]
theorem writes2_1 : (hostOps2_1 : List (HloOp τ sig (Elt F))).Forall fun op => op.writes ⊆ (written2_1.map (Proc.devRef (τ := τ) .tc)).toFinset := by
  simp only [hostOps2_1, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
/-- A buffer that `hostOps2_1` does not write keeps its contents across it. -/
theorem keep2_1 (V : Valuation τ sig (Elt F)) (r : Ref sig .tc) (h : r ∉ written2_1) :
    StableHlo.after hostOps2_1 V (Proc.devRef .tc r) = V (Proc.devRef .tc r) :=
  StableHlo.after_of_writes_sub hostOps2_1 V writes2_1 h

/-- The buffers the operations of `hostOps2_2` write. -/
abbrev written2_2 : List (Ref sig .tc) := [main_cst_13, main_v68, main_v69, main_v70]
theorem writes2_2 : (hostOps2_2 : List (HloOp τ sig (Elt F))).Forall fun op => op.writes ⊆ (written2_2.map (Proc.devRef (τ := τ) .tc)).toFinset := by
  simp only [hostOps2_2, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
/-- A buffer that `hostOps2_2` does not write keeps its contents across it. -/
theorem keep2_2 (V : Valuation τ sig (Elt F)) (r : Ref sig .tc) (h : r ∉ written2_2) :
    StableHlo.after hostOps2_2 V (Proc.devRef .tc r) = V (Proc.devRef .tc r) :=
  StableHlo.after_of_writes_sub hostOps2_2 V writes2_2 h

/-! ## What each stretch computes, from any contents `V` -/

/-- The source ends of the edges after the first stretch. -/
theorem pre_src (V : Valuation τ sig (Elt F)) :
    StableHlo.after hostOps0 V (Proc.devRef .tc main_v3) = HostSpec.srcOf (V (Proc.devRef .tc main_arg1)) := by
  simp only [hostOps0]
  after_results_simp
  rfl

/-- The destination ends of the edges after the first stretch. -/
theorem pre_dst (V : Valuation τ sig (Elt F)) :
    StableHlo.after hostOps0 V (Proc.devRef .tc main_v6) = HostSpec.dstOf (V (Proc.devRef .tc main_arg1)) := by
  simp only [hostOps0]
  after_results_simp
  rfl

/-- The edge weights after the three stretches before the first region. -/
theorem pre_norm (V : Valuation τ sig (Elt F)) :
    StableHlo.after hostOps0_2 (StableHlo.after hostOps0_1 (StableHlo.after hostOps0 V)) (Proc.devRef .tc main_v31)
      = HostSpec.norm (V (Proc.devRef .tc main_arg1)) := by
  simp only [hostOps0, hostOps0_1, hostOps0_2]
  after_results_simp
  rfl

/-- One graph convolution: the two stretches after a product's region, from the product and the edge data as found. -/
theorem mid1 (V : Valuation τ sig (Elt F)) :
    StableHlo.after hostOps1_1 (StableHlo.after hostOps1 V) (Proc.devRef .tc main_v49)
      = HostSpec.layer (V (Proc.devRef .tc main_v32)) (V (Proc.devRef .tc main_v3)) (V (Proc.devRef .tc main_v6))
          (V (Proc.devRef .tc main_v31)) (V (Proc.devRef .tc main_arg4)) := by
  simp only [hostOps1, hostOps1_1]
  after_results_simp
  rfl

/-- The second graph convolution and the pooling: the three stretches after the second product's region. -/
theorem mid2 (V : Valuation τ sig (Elt F)) :
    StableHlo.after hostOps2_2 (StableHlo.after hostOps2_1 (StableHlo.after hostOps2 V)) (Proc.devRef .tc main_v70)
      = HostSpec.pool (HostSpec.layer (V (Proc.devRef .tc main_v50)) (V (Proc.devRef .tc main_v3)) (V (Proc.devRef .tc main_v6))
          (V (Proc.devRef .tc main_v31)) (V (Proc.devRef .tc main_arg6))) (V (Proc.devRef .tc main_arg2)) := by
  simp only [hostOps2, hostOps2_1, hostOps2_2]
  after_results_simp
  rfl

/-! ## The boundaries of the run -/

variable (m : (ℓ : Loc nD τ sig) → Buf (Elt F) ℓ) (ρ : Dev nD → PrngReg) (c : Dev nD)

/-- A buffer none of the first three stretches writes is, at the first region's entry, as launched. -/
theorem W3_of (r : Ref sig .tc) (h0 : r ∉ written0) (h1 : r ∉ written0_1) (h2 : r ∉ written0_2) :
    W3 m ρ c (Proc.devRef .tc r) = m ((c : Thread nD τ).loc r) :=
  (keep0_2 _ r h2).trans ((keep0_1 _ r h1).trans ((keep0 _ r h0).trans rfl))

/-- A buffer the two stretches after region 0 do not write is, at the second region's entry, as region 0 left it. -/
theorem W6_of (r : Ref sig .tc) (h0 : r ∉ written1) (h1 : r ∉ written1_1) :
    W6 m ρ c (Proc.devRef .tc r) = W4 m ρ c (Proc.devRef .tc r) :=
  (keep1_1 _ r h1).trans (keep1 _ r h0)

/-- A buffer the three stretches after region 1 do not write is, at the third region's entry, as region 1 left it. -/
theorem W10_of (r : Ref sig .tc) (h0 : r ∉ written2) (h1 : r ∉ written2_1) (h2 : r ∉ written2_2) :
    W10 m ρ c (Proc.devRef .tc r) = W7 m ρ c (Proc.devRef .tc r) :=
  (keep2_2 _ r h2).trans ((keep2_1 _ r h1).trans (keep2 _ r h0))

/-- An argument (or any buffer no stretch writes and no region owns) is as launched at region 1's entry … -/
theorem W6_arg (r : Ref sig .tc) (h0 : r ∉ written0) (h1 : r ∉ written0_1) (h2 : r ∉ written0_2)
    (hr0 : ∀ w, Pipeline.arrRef spec0 w ≠ r) (h3 : r ∉ written1) (h4 : r ∉ written1_1) :
    W6 m ρ c (Proc.devRef .tc r) = m ((c : Thread nD τ).loc r) :=
  (W6_of m ρ c r h3 h4).trans ((W4_of_ne m ρ c r hr0).trans (W3_of m ρ c r h0 h1 h2))

/-- … and at region 1's exit. -/
theorem W7_arg (r : Ref sig .tc) (h0 : r ∉ written0) (h1 : r ∉ written0_1) (h2 : r ∉ written0_2)
    (hr0 : ∀ w, Pipeline.arrRef spec0 w ≠ r) (h3 : r ∉ written1) (h4 : r ∉ written1_1)
    (hr1 : ∀ w, Pipeline.arrRef spec1 w ≠ r) :
    W7 m ρ c (Proc.devRef .tc r) = m ((c : Thread nD τ).loc r) :=
  (W7_of_ne m ρ c r hr1).trans (W6_arg m ρ c r h0 h1 h2 hr0 h3 h4)

/-- The edge data at the first region's entry. -/
theorem W3_src : W3 m ρ c (Proc.devRef .tc main_v3) = HostSpec.srcOf (m ((c : Thread nD τ).loc main_arg1)) :=
  (keep0_2 _ main_v3 (by decide)).trans ((keep0_1 _ main_v3 (by decide)).trans (pre_src (W0 m ρ c)))
theorem W3_dst : W3 m ρ c (Proc.devRef .tc main_v6) = HostSpec.dstOf (m ((c : Thread nD τ).loc main_arg1)) :=
  (keep0_2 _ main_v6 (by decide)).trans ((keep0_1 _ main_v6 (by decide)).trans (pre_dst (W0 m ρ c)))
theorem W3_norm : W3 m ρ c (Proc.devRef .tc main_v31) = HostSpec.norm (m ((c : Thread nD τ).loc main_arg1)) :=
  pre_norm (W0 m ρ c)

/-- The edge data at region 0's exit. -/
theorem W4_src : W4 m ρ c (Proc.devRef .tc main_v3) = HostSpec.srcOf (m ((c : Thread nD τ).loc main_arg1)) :=
  (W4_of_ne m ρ c main_v3 (by decide)).trans (W3_src m ρ c)
theorem W4_dst : W4 m ρ c (Proc.devRef .tc main_v6) = HostSpec.dstOf (m ((c : Thread nD τ).loc main_arg1)) :=
  (W4_of_ne m ρ c main_v6 (by decide)).trans (W3_dst m ρ c)
theorem W4_norm : W4 m ρ c (Proc.devRef .tc main_v31) = HostSpec.norm (m ((c : Thread nD τ).loc main_arg1)) :=
  (W4_of_ne m ρ c main_v31 (by decide)).trans (W3_norm m ρ c)
theorem W4_arg4 : W4 m ρ c (Proc.devRef .tc main_arg4) = m ((c : Thread nD τ).loc main_arg4) :=
  (W4_of_ne m ρ c main_arg4 (by decide)).trans (W3_of m ρ c main_arg4 (by decide) (by decide) (by decide))

/-- The edge data at region 1's exit. -/
theorem W7_src : W7 m ρ c (Proc.devRef .tc main_v3) = HostSpec.srcOf (m ((c : Thread nD τ).loc main_arg1)) :=
  (W7_of_ne m ρ c main_v3 (by decide)).trans ((W6_of m ρ c main_v3 (by decide) (by decide)).trans (W4_src m ρ c))
theorem W7_dst : W7 m ρ c (Proc.devRef .tc main_v6) = HostSpec.dstOf (m ((c : Thread nD τ).loc main_arg1)) :=
  (W7_of_ne m ρ c main_v6 (by decide)).trans ((W6_of m ρ c main_v6 (by decide) (by decide)).trans (W4_dst m ρ c))
theorem W7_norm : W7 m ρ c (Proc.devRef .tc main_v31) = HostSpec.norm (m ((c : Thread nD τ).loc main_arg1)) :=
  (W7_of_ne m ρ c main_v31 (by decide)).trans ((W6_of m ρ c main_v31 (by decide) (by decide)).trans (W4_norm m ρ c))

end Cert.KernelIdeal.Fold

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibRowOps.lean ====
/-
  General readings, at the ideal values, of the operations a row-wise dense layer and a row-wise reduction are printed
  with, each at an entry given by its coordinates.

  * An affine layer `A·B + b` (the bias a vector laid along every row): the entry `(r, c)` is `∑_q A_{r,q} B_{q,c} + b_c`,
    whether it is spelt as a kernel spells it (a matrix product accumulated into the zero splat, plus the broadcast of the
    bias's one-row cast) or as the host does (a `dot_general`, plus the bias broadcast to one row and then down the rows).
  * A sum along the rows of a matrix: the entry `r` is `∑_q v_{r,q}`, for the kernel's lane reduction (whose neutral
    accumulator the reading drops) and, with the initial value in front, for the host's `reduce`.
  * A column `[a, 1]` turned on its side and given a leading unit axis reads back, at `(0, 0, j)`, the column at `(j, 0)`.
-/
import Idealize.ShloMosaic.Lib.StackMember
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws
import proofs.«159713_j84533546319965_1_alg».proof.Proof.LibMatmulPlain

noncomputable section

open scoped BigOperators

namespace Cert.LibRowOps

open Idealize.ShloMosaic Idealize.ShloMosaic.ValueIdx

/-- A kernel's affine layer at an entry: the matrix product with the plain dimension numbers into the zero splat, plus the
    bias vector cast to one row and broadcast down the rows. -/
theorem kernel_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (h1 : (⟨1, ![n]⟩ : Shape).ShapeCasts ⟨2, ![1, n]⟩) (hb : (⟨2, ![1, n]⟩ : Shape).Broadcasts ⟨2, ![m, n]⟩)
    (r : Fin m) (c : Fin n) :
    addf (matmul dd prec A B (constant (F := Ideal) ⟨2, ![m, n]⟩ .f32 0x00000000#32))
        (broadcastTo ⟨2, ![m, n]⟩ (shapeCast ⟨2, ![1, n]⟩ b h1) hb) (ix2 r c)
      = (∑ q : Fin k, A (ix2 r q) * B (ix2 q c)) + b (ix1 c) := by
  subst hdd
  rw [addf_apply, LibMatmulPlain.matmul_plain_zero_apply, broadcastTo_1b_ab_apply, shapeCast_a_1a_apply]

/-- The host's affine layer at an entry: a `dot_general` with the plain dimension numbers, plus the bias vector broadcast to
    one row and that row broadcast down the rows. -/
theorem host_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (c : Fin n) :
    addf (Host.dotGeneral dd prec A B)
        (broadcastInDim ⟨2, ![m, n]⟩ ![0, 1] hd2 (broadcastInDim ⟨2, ![1, n]⟩ ![1] hd1 b)) (ix2 r c)
      = (∑ q : Fin k, A (ix2 r q) * B (ix2 q c)) + b (ix1 c) := by
  subst hdd
  rw [addf_apply, StackMember.dotGeneral_plain_apply, broadcastInDim_oneRow_apply]
  refine congrArg (_ + ·) ?_
  refine broadcastInDim_apply ![1] hd1 b (ix2 (0 : Fin 1) c) (ix1 c) fun a => ?_
  match a with
  | ⟨0, _⟩ =>
    show c.val = if n = 1 then 0 else c.val
    split
    · have := c.isLt; omega
    · rfl

/-- A kernel's sum along the rows of a matrix, at row `r`. -/
theorem kernel_rowsum_apply {m k : Nat} (v : FVec Ideal ⟨2, ![m, k]⟩ .f32)
    (h : (⟨2, ![m, k]⟩ : Shape).Reduces [1] ⟨1, ![m]⟩) (hφ : FKind.Formats .f32)
    (hacc : (0x00000000#32 : BitVec FTy.f32.bits) = FKind.add.neutral .f32 hφ) (r : Fin m) :
    multiReduction .add [1] ⟨1, ![m]⟩ v 0x00000000#32 h hφ hacc (ix1 r) = ∑ q : Fin k, v (ix2 r q) := by
  refine (Ideal.multiReduction_add_single v 0x00000000#32 h hφ hacc (ix1 r)).trans ?_
  refine Finset.sum_congr rfl fun q _ => congrArg v (funext fun a => Fin.ext ?_)
  match a with
  | ⟨0, _⟩ => rfl
  | ⟨1, _⟩ => rfl

/-- The host's sum along the rows of a matrix from a scalar initial value, at row `r`. -/
theorem host_rowsum_apply {m k : Nat} (v : FVec Ideal ⟨2, ![m, k]⟩ .f32) (init : FVec Ideal ⟨0, ![]⟩ .f32)
    (h' : (⟨2, ![m, k]⟩ : Shape).ReducesTo [1] ⟨1, ![m]⟩) (h : (⟨2, ![m, k]⟩ : Shape).Reduces [1] ⟨1, ![m]⟩)
    (hu : 0 < (⟨0, ![]⟩ : Shape).numel) (r : Fin m) :
    Host.reduceAdd v init h' hu (ix1 r) = init ix0 + ∑ q : Fin k, v (ix2 r q) := by
  show Ideal.hostReduceAdd h' v (init (Shape.Idx.first hu)) (ix1 r) = _
  rw [Ideal.hostReduceAdd_single h' h, eq_ix0 (Shape.Idx.first hu)]
  refine congrArg (_ + ·) (Finset.sum_congr rfl fun q _ => congrArg v (funext fun a => Fin.ext ?_))
  match a with
  | ⟨0, _⟩ => rfl
  | ⟨1, _⟩ => rfl

/-- A column turned on its side and given a leading unit axis, read at `(0, 0, j)`: the column's entry of row `j`. -/
theorem column_as_lanes_apply {a : Nat} {α : Type} (x : (⟨2, ![a, 1]⟩ : Shape).Idx → α)
    (ht : (⟨2, ![a, 1]⟩ : Shape).Transposes [1, 0] ⟨2, ![1, a]⟩)
    (hc : (⟨2, ![1, a]⟩ : Shape).ShapeCasts ⟨3, ![1, 1, a]⟩) (j : Fin a) :
    shapeCast ⟨3, ![1, 1, a]⟩ (transpose ⟨2, ![1, a]⟩ [1, 0] x ht) hc (ix3 (0 : Fin 1) (0 : Fin 1) j) = x (ix2 j (0 : Fin 1)) := by
  rw [shapeCast_ab_1ab_apply, transpose_ix2_apply]

end Cert.LibRowOps

end
-- ==== Proof.LibKeepdims.lean ====
/-
  Two layout readings a row reduction with `keepdims` needs: a vector of `a` entries viewed as a column `[a, 1]`, and that
  column repeated along `b` columns. Each reads, at an index given by its coordinates, one entry of the operand.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibLogSoftmax.lean ====
/-
  A row-wise log-softmax at the ideal values, read at an entry given by its coordinates.

  For a finite family `L` of extended reals (one row of logits) put `M = max_q L_q`, the fold of `max` from the value
  the accumulator's pattern denotes. The log-softmax of the row at `c` is `(L_c - M) - log (∑_q exp (L_q - M))`.
  Both spellings below read as this one function of the row:

  * a kernel's: the lane maximum kept as a column and broadcast back, the difference, its exponential, the lane sum
    kept as a column, its logarithm broadcast back, the second difference;
  * the host's (jax.nn.log_softmax over axis 1): a `reduce` by `maximum` from an initial value, the `maximum` of that with
    the same value broadcast (which changes nothing: the fold already dominates the value it starts from), the column
    and its broadcast, the difference, `exponential`, a `reduce` by `add` from zero, the column, `log`, its broadcast, the
    second difference.
-/
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import proofs.«159713_j84533546319965_1_alg».proof.Proof.LibKeepdims
import proofs.«159713_j84533546319965_1_alg».proof.Proof.LibRowOps

noncomputable section

open scoped BigOperators

namespace Cert.LibLogSoftmax

open Idealize.ShloMosaic Idealize.ShloMosaic.ValueIdx

/-! ## The row function -/

/-- The maximum of a row: the fold of `max` over its entries from the value `b`. -/
def rowMax {n : Nat} (b : EReal) (L : Fin n → EReal) : EReal := (Finset.univ : Finset (Fin n)).fold max b L

/-- The log-softmax of a row at entry `c`, the maximum taken from `b`: `(L_c - M) - log (∑_q exp (L_q - M))`. -/
def rowLogSoftmax {n : Nat} (b : EReal) (L : Fin n → EReal) (c : Fin n) : EReal :=
  (L c - rowMax b L) - Ideal.log (∑ q : Fin n, Ideal.exp (L q - rowMax b L))

/-- The fold of `max` dominates the value it starts from, so taking the maximum with that value again changes nothing. -/
theorem max_rowMax {n : Nat} (b : EReal) (L : Fin n → EReal) : max b (rowMax b L) = rowMax b L :=
  max_eq_right ((Finset.le_fold_max b).2 (Or.inl le_rfl))

/-! ## The exponential and the logarithm read at an index -/

variable {s : Shape} {φ : FTy}

theorem exp_apply (x : FVec Ideal s φ) (i : s.Idx) : exp x i = Ideal.exp (x i) := rfl
theorem log_apply (x : FVec Ideal s φ) (i : s.Idx) : log x i = Ideal.log (x i) := rfl
theorem hostExp_apply (x : FVec Ideal s φ) (i : s.Idx) : Host.exp x i = Ideal.exp (x i) := rfl
theorem hostLog_apply (x : FVec Ideal s φ) (i : s.Idx) : Host.log x i = Ideal.log (x i) := rfl

/-! ## Maxima along the rows, and the host's column broadcasts -/

/-- A kernel's lane maximum over axis 1 of `[m, n]`, at row `r`: the row's maximum from the accumulator's value. -/
theorem kernel_rowmax_apply {m n : Nat} (v : FVec Ideal ⟨2, ![m, n]⟩ .f32) (acc : BitVec FTy.f32.bits)
    (h : (⟨2, ![m, n]⟩ : Shape).Reduces [1] ⟨1, ![m]⟩) (hφ : FKind.Formats .f32)
    (hacc : acc = FKind.maximumf.neutral .f32 hφ) (r : Fin m) :
    multiReduction .maximumf [1] ⟨1, ![m]⟩ v acc h hφ hacc (ix1 r) = rowMax (Ideal.ofBits .f32 acc) fun q => v (ix2 r q) := by
  refine (Ideal.multiReduction_maximumf_single v acc h hφ hacc (ix1 r)).trans ?_
  refine congrArg (Finset.univ.fold max (Ideal.ofBits .f32 acc)) (funext fun q => congrArg v (funext fun a => Fin.ext ?_))
  match a with
  | ⟨0, _⟩ => rfl
  | ⟨1, _⟩ => rfl

/-- The host's `reduce` by `maximum` over axis 1 of `[m, n]` from a scalar initial value, at row `r`. -/
theorem host_rowmax_apply {m n : Nat} (v : FVec Ideal ⟨2, ![m, n]⟩ .f32) (init : FVec Ideal ⟨0, ![]⟩ .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (r : Fin m) :
    Host.reduce (FloatOps.maximumf (F := Ideal) (φ := .f32)) v init h' hu (ix1 r) = rowMax (init ix0) fun q => v (ix2 r q) := by
  refine (Host.reduce_eq_fold_single (FloatOps.maximumf (F := Ideal) (φ := .f32)) v init h' h hu (ix1 r)).trans ?_
  rw [eq_ix0 (Shape.Idx.first hu)]
  refine congrArg (Finset.univ.fold max (init ix0)) (funext fun q => congrArg v (funext fun a => Fin.ext ?_))
  match a with
  | ⟨0, _⟩ => rfl
  | ⟨1, _⟩ => rfl

/-- The host's broadcast of `[a]` to the column `[a, 1]` reads, at `(i, u)`, the operand at `i`. -/
theorem broadcastInDim_a_a1_apply {α : Type} {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's broadcast of a column `[a, 1]` to `[a, b]` reads, at `(p, c)`, the column's entry of row `p`. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## A kernel's spelling -/

/-- A kernel's shifted logits: the logits minus their lane maximum, kept as a column and broadcast back. -/
abbrev kernelShift {m n : Nat} (L : FVec Ideal ⟨2, ![m, n]⟩ .f32)
    (hr : (⟨2, ![m, n]⟩ : Shape).Reduces [1] ⟨1, ![m]⟩) (hc : (⟨1, ![m]⟩ : Shape).ShapeCasts ⟨2, ![m, 1]⟩)
    (hb : (⟨2, ![m, 1]⟩ : Shape).Broadcasts ⟨2, ![m, n]⟩) (hφ : FKind.Formats .f32)
    (hmax : (0xFF800000#32 : BitVec FTy.f32.bits) = FKind.maximumf.neutral .f32 hφ) : FVec Ideal ⟨2, ![m, n]⟩ .f32 :=
  subf L (broadcastTo ⟨2, ![m, n]⟩ (shapeCast ⟨2, ![m, 1]⟩ (multiReduction .maximumf [1] ⟨1, ![m]⟩ L 0xFF800000#32 hr hφ hmax) hc) hb)

/-- A kernel's row-wise log-softmax of `[m, n]` logits at entry `(r, c)`. -/
theorem kernel_apply {m n : Nat} (L : FVec Ideal ⟨2, ![m, n]⟩ .f32)
    (hr : (⟨2, ![m, n]⟩ : Shape).Reduces [1] ⟨1, ![m]⟩) (hc : (⟨1, ![m]⟩ : Shape).ShapeCasts ⟨2, ![m, 1]⟩)
    (hb : (⟨2, ![m, 1]⟩ : Shape).Broadcasts ⟨2, ![m, n]⟩) (hφ : FKind.Formats .f32)
    (hmax : (0xFF800000#32 : BitVec FTy.f32.bits) = FKind.maximumf.neutral .f32 hφ)
    (hadd : (0x00000000#32 : BitVec FTy.f32.bits) = FKind.add.neutral .f32 hφ) (r : Fin m) (c : Fin n) :
    subf (kernelShift L hr hc hb hφ hmax)
        (broadcastTo ⟨2, ![m, n]⟩ (log (shapeCast ⟨2, ![m, 1]⟩ (multiReduction .add [1] ⟨1, ![m]⟩
          (exp (kernelShift L hr hc hb hφ hmax)) 0x00000000#32 hr hφ hadd) hc)) hb) (ix2 r c)
      = rowLogSoftmax (Ideal.ofBits .f32 0xFF800000#32) (fun q => L (ix2 r q)) c := by
  have hsh : ∀ q : Fin n, kernelShift L hr hc hb hφ hmax (ix2 r q)
      = L (ix2 r q) - rowMax (Ideal.ofBits .f32 0xFF800000#32) fun q => L (ix2 r q) := fun q => by
    unfold kernelShift
    rw [subf_apply, Keepdims.broadcastTo_a1_ab_apply, Keepdims.shapeCast_a_a1_apply, kernel_rowmax_apply]
  have hsum : (∑ q : Fin n, exp (kernelShift L hr hc hb hφ hmax) (ix2 r q))
      = ∑ q : Fin n, Ideal.exp (L (ix2 r q) - rowMax (Ideal.ofBits .f32 0xFF800000#32) fun q => L (ix2 r q)) :=
    Finset.sum_congr rfl fun q _ => by rw [exp_apply, hsh q]
  rw [subf_apply, hsh c, Keepdims.broadcastTo_a1_ab_apply, log_apply, Keepdims.shapeCast_a_a1_apply,
    LibRowOps.kernel_rowsum_apply, hsum]
  rfl

/-! ## The host's spelling -/

/-- The host's shifted logits: the logits minus the column of their row maxima, broadcast back. -/
abbrev hostShift {m n : Nat} (L : FVec Ideal ⟨2, ![m, n]⟩ .f32) (b : BitVec FTy.f32.bits)
    (h' : (⟨2, ![m, n]⟩ : Shape).ReducesTo [1] ⟨1, ![m]⟩) (hu : 0 < (⟨0, ![]⟩ : Shape).numel)
    (h0 : (⟨0, ![]⟩ : Shape).BroadcastsInDim ⟨1, ![m]⟩ (![] : Fin 0 → Fin 1))
    (h1 : (⟨1, ![m]⟩ : Shape).BroadcastsInDim ⟨2, ![m, 1]⟩ ![0])
    (h2 : (⟨2, ![m, 1]⟩ : Shape).BroadcastsInDim ⟨2, ![m, n]⟩ ![0, 1]) : FVec Ideal ⟨2, ![m, n]⟩ .f32 :=
  subf L (broadcastInDim ⟨2, ![m, n]⟩ ![0, 1] h2 (broadcastInDim ⟨2, ![m, 1]⟩ ![0] h1
    (maximumf (broadcastInDim ⟨1, ![m]⟩ ![] h0 (constant (F := Ideal) ⟨0, ![]⟩ .f32 b))
      (Host.reduce (FloatOps.maximumf (F := Ideal) (φ := .f32)) L (constant (F := Ideal) ⟨0, ![]⟩ .f32 b) h' hu))))

/-- The host's row-wise log-softmax of `[m, n]` logits at entry `(r, c)`. -/
theorem host_apply {m n : Nat} (L : FVec Ideal ⟨2, ![m, n]⟩ .f32) (b : BitVec FTy.f32.bits)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel)
    (h0 : (⟨0, ![]⟩ : Shape).BroadcastsInDim ⟨1, ![m]⟩ (![] : Fin 0 → Fin 1))
    (h1 : (⟨1, ![m]⟩ : Shape).BroadcastsInDim ⟨2, ![m, 1]⟩ ![0])
    (h2 : (⟨2, ![m, 1]⟩ : Shape).BroadcastsInDim ⟨2, ![m, n]⟩ ![0, 1]) (r : Fin m) (c : Fin n) :
    subf (hostShift L b h' hu h0 h1 h2)
        (broadcastInDim ⟨2, ![m, n]⟩ ![0, 1] h2 (Host.log (broadcastInDim ⟨2, ![m, 1]⟩ ![0] h1
          (Host.reduceAdd (Host.exp (hostShift L b h' hu h0 h1 h2))
            (constant (F := Ideal) ⟨0, ![]⟩ .f32 0x00000000#32) h' hu)))) (ix2 r c)
      = rowLogSoftmax (Ideal.ofBits .f32 b) (fun q => L (ix2 r q)) c := by
  have hsh : ∀ q : Fin n, hostShift L b h' hu h0 h1 h2 (ix2 r q)
      = L (ix2 r q) - rowMax (Ideal.ofBits .f32 b) fun q => L (ix2 r q) := fun q => by
    unfold hostShift
    rw [subf_apply, broadcastInDim_a1_ab_apply, broadcastInDim_a_a1_apply, maximumf_apply, broadcastInDim_scalar_apply,
      host_rowmax_apply L _ h' h hu r, constant_apply, max_rowMax]
  have hsum : (∑ q : Fin n, Host.exp (hostShift L b h' hu h0 h1 h2) (ix2 r q))
      = ∑ q : Fin n, Ideal.exp (L (ix2 r q) - rowMax (Ideal.ofBits .f32 b) fun q => L (ix2 r q)) :=
    Finset.sum_congr rfl fun q _ => by rw [hostExp_apply, hsh q]
  rw [subf_apply, hsh c, broadcastInDim_a1_ab_apply, hostLog_apply, broadcastInDim_a_a1_apply,
    LibRowOps.host_rowsum_apply _ _ h' h hu r, hsum, constant_apply, Ideal.ofBits_zero_f32, zero_add]
  rfl

end Cert.LibLogSoftmax

end
-- ==== Proof.Payloads.lean ====
/-
  What each of the three kernel bodies stores, read at one entry, at the ideal values.

  The two tiled products store, for a block `A` of 5000 rows and the whole right factor `B`, the plain product: the
  entry `(a, b)` is `∑_q A_{a,q} · B_{q,b}` (rounding the factors to bf16 first is the identity on the extended reals, and
  the accumulator is the zero splat).

  The last body stores the row-wise log-softmax of the affine layer `P · W + bias`: with `L_c = ∑_q P_{r,q} W_{q,c} + bias_c`
  the logits of row `r` and `M` their maximum (the fold of `max` from `-∞`), the entry `(r, c)` is
  `(L_c - M) - log (∑_q exp (L_q - M))`.
-/
import proofs.«159713_j84533546319965_1_alg».proof.Proof.Gen.KernelIdeal.Skeleton
import proofs.«159713_j84533546319965_1_alg».proof.Proof.LibMatmulPlain
import proofs.«159713_j84533546319965_1_alg».proof.Proof.LibRowOps
import proofs.«159713_j84533546319965_1_alg».proof.Proof.LibLogSoftmax
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The printed dimension numbers of the tiled products are the plain ones: rows by columns, one contracted axis. -/
theorem dims_rows : dot_S5000x128_S128x128_S5000x128_1_0_0_1_n_n = DotDims.plain 5000 128 128 := rfl

/-- The printed dimension numbers of the last body's product are the plain ones. -/
theorem dims_final : dot_S500x128_S128x16_S500x16_1_0_0_1_n_n = DotDims.plain 500 128 16 := rfl

/-- The first tiled product at an entry of its block. -/
theorem k0_apply (A : Vec Ideal S5000x128 .f32) (B : Vec Ideal S128x128 .f32) (a : Fin 5000) (b : Fin 128) :
    k0_pay1 (F := Ideal) A B (ix2 a b) = ∑ q : Fin 128, A (ix2 a q) * B (ix2 q b) := by
  unfold k0_pay1
  rw [dims_rows]
  exact LibMatmulPlain.matmul_plain_zero_apply none (φ₁ := .bf16) (φ₂ := .bf16) A B a b

/-- The second tiled product at an entry of its block (its left block first passes through a cast to its own shape). -/
theorem k1_apply (A : Vec Ideal S5000x128 .f32) (B : Vec Ideal S128x128 .f32) (a : Fin 5000) (b : Fin 128) :
    k1_pay1 (F := Ideal) A B (ix2 a b) = ∑ q : Fin 128, A (ix2 a q) * B (ix2 q b) := by
  unfold k1_pay1
  rw [dims_rows, shapeCast_self]
  exact LibMatmulPlain.matmul_plain_zero_apply none (φ₁ := .bf16) (φ₂ := .bf16) A B a b

/-- The logits of row `r`: the affine layer `P · W + bias` along that row. -/
def logits (P : Vec Ideal S500x128 .f32) (W : Vec Ideal S128x16 .f32) (bias : Vec Ideal S16 .f32) (r : Fin 500) (c : Fin 16) : EReal :=
  (∑ q : Fin 128, P (ix2 r q) * W (ix2 q c)) + bias (ix1 c)

/-- The last body at an entry: the log-softmax of the row's logits, the maximum folded from `-∞`. -/
theorem k2_apply (P : Vec Ideal S500x128 .f32) (W : Vec Ideal S128x16 .f32) (bias : Vec Ideal S16 .f32) (r : Fin 500) (c : Fin 16) :
    k2_pay1 (F := Ideal) P W bias (ix2 r c)
      = LibLogSoftmax.rowLogSoftmax (Ideal.ofBits .f32 0xFF800000#32) (logits P W bias r) c := by
  unfold k2_pay1
  rw [shapeCast_self]
  refine (LibLogSoftmax.kernel_apply _ reduces_S500x16_S500 shapeCasts_S500_S500x1 broadcasts_S500x1_S500x16 (.inl rfl) rfl rfl r c).trans ?_
  refine congrArg (fun L => LibLogSoftmax.rowLogSoftmax (Ideal.ofBits .f32 0xFF800000#32) L c) (funext fun q => ?_)
  exact LibRowOps.kernel_affine_apply _ dims_final none (φ₁ := .bf16) (φ₂ := .bf16) P W bias shapeCasts_S16_S1x16 broadcasts_S1x16_S500x16 r q

end Cert.KernelIdeal.Payload

end
-- ==== Proof.Regions.lean ====
/-
  What each of the three kernel regions leaves in its result array, as one function of the arrays the region finds on
  entry, at the ideal values.

  Regions 0 and 1 are the same tiled product: ten grid points, point `t` staging rows `5000 t … 5000 t + 4999` of the left
  factor and the whole right factor, and writing back the same rows of the result. Entry `(p, q)` of the block is
  `∑_k A_{5000 t + p, k} B_{k, q}`, which is entry `(5000 t + p, q)` of the plain product of the two arrays; the ten
  blocks tile the result (row `r` is in the block of point `r / 5000`), so the result array ends as that product.

  Region 2 has one grid point whose blocks are the whole arrays, so its result array is the body's value of the three
  operand arrays: the row-wise log-softmax of the affine layer.
-/
import proofs.«159713_j84533546319965_1_alg».proof.Proof.Gen.KernelIdeal.Frame
import proofs.«159713_j84533546319965_1_alg».proof.Proof.Payloads
import proofs.«159713_j84533546319965_1_alg».proof.Proof.HostSpec
import Idealize.ShloMosaic.Lib.Pipeline.Value
import Idealize.ShloMosaic.Lib.StackMember
import Idealize.ShloMosaic.Lib.ValueIdx

noncomputable section

open scoped BigOperators

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

/-- The host's dense product of a 50000×128 array by a 128×128 one (its printed dimension numbers are the plain ones), read
    at an entry: the inner product of a row with a column. -/
theorem prodRows_apply (A : FVec Ideal S50000x128 .f32) (B : FVec Ideal S128x128 .f32) (r : Fin 50000) (q : Fin 128) :
    HostSpec.dotRows A B (ix2 r q) = ∑ k : Fin 128, A (ix2 r k) * B (ix2 k q) := by
  unfold HostSpec.dotRows
  rw [show Cert.ReferenceIdeal.dot_S50000x128_S128x128_S50000x128_1_0_0_1_n_n = DotDims.plain 50000 128 128 from rfl]
  exact StackMember.dotGeneral_plain_apply none A B r q

theorem hz : (![0, 0] : Fin 2 → Nat) = fun _ => 0 := funext fun a => by fin_cases a <;> rfl
theorem hz1 : (![0] : Fin 1 → Nat) = fun _ => 0 := funext fun a => by fin_cases a; rfl

variable (V : (c : Dev nD) → (b : Ref sig .tc) → Buf (Elt Ideal) ((c : Thread nD τ).loc b))

/-! ## Region 0: the first tiled product -/

/-- The printed index maps of region 0, decided over its ten grid points: the left factor's and the result's row block
    moves with the point, the right factor stays whole. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the left factor's block at point `t` is row `5000 t + p` of the array. -/
theorem left0_apply (c : Dev nD) (t : Fin cfg0.N) (p : Fin 5000) (k : Fin 128) (R : Fin 50000) (hR : R.val = 5000 * t.val + p.val) :
    (iblk0 V c 0 t : Vec Ideal S5000x128 .f32) (ix2 p k) = (V c main_arg0 : S50000x128.Idx → EReal) (ix2 R k) := by
  obtain ⟨e0, e1, -, -, -, -⟩ := idx0 t
  unfold iblk0
  rw [View.read_apply]
  show (V c main_arg0 : S50000x128.Idx → EReal) _ = _
  refine congrArg (V c main_arg0 : S50000x128.Idx → EReal) (funext fun a => Fin.ext ?_)
  match a with
  | ⟨0, _⟩ => show win0_0.index t (0 : Fin 2) * 5000 + 1 * p.val = R.val; omega
  | ⟨1, _⟩ => show win0_0.index t (1 : Fin 2) * 128 + 1 * k.val = k.val; omega

/-- The right factor's block at any point is the whole array. -/
theorem right0_apply (c : Dev nD) (t : Fin cfg0.N) (k : Fin 128) (q : Fin 128) :
    (iblk0 V c 1 t : Vec Ideal S128x128 .f32) (ix2 k q) = (V c main_arg3 : S128x128.Idx → EReal) (ix2 k q) := by
  obtain ⟨-, -, e2, e3, -, -⟩ := idx0 t
  unfold iblk0
  rw [View.read_apply]
  show (V c main_arg3 : S128x128.Idx → EReal) _ = _
  refine congrArg (V c main_arg3 : S128x128.Idx → EReal) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- What point `t` writes back is rows `5000 t … 5000 t + 4999` of the product of the two arrays. -/
theorem flushed0 (c : Dev nD) (t : Fin cfg0.N) :
    (dat0 V c).flushed 2 t = ((cfg0.win 2).blk t).view.read (Elt Ideal) (HostSpec.dotRows (F := Ideal) (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5⟩ := idx0 t
  have hN : t.val < 10 := lt_of_lt_of_eq t.isLt (show cfg0.N = 10 from N_0)
  funext j
  obtain ⟨p, q, rfl⟩ : ∃ (p : Fin 5000) (q : Fin 128), j = ix2 p q := ⟨j 0, j 1, eq_ix2 j⟩
  have hlt : 5000 * t.val + p.val < 50000 := by have := p.isLt; omega
  have hout : ((cfg0.win 2).blk t).view.emb (ix2 p q) = (ix2 (⟨5000 * t.val + p.val, hlt⟩ : Fin 50000) q : S50000x128.Idx) := by
    funext a; apply Fin.ext
    match a with
    | ⟨0, _⟩ => show win0_2.index t (0 : Fin 2) * 5000 + 1 * p.val = 5000 * t.val + p.val; omega
    | ⟨1, _⟩ => show win0_2.index t (1 : Fin 2) * 128 + 1 * q.val = q.val; omega
  show k0_pay1 (F := Ideal) (iblk0 V c 0 t) (iblk0 V c 1 t) (ix2 p q) = HostSpec.dotRows (F := Ideal) (V c main_arg0) (V c main_arg3) (((cfg0.win 2).blk t).view.emb (ix2 p q))
  rw [hout, prodRows_apply]
  refine (Payload.k0_apply (iblk0 V c 0 t) (iblk0 V c 1 t) p q).trans ?_
  refine Finset.sum_congr rfl fun k _ => ?_
  rw [left0_apply V c t p k ⟨5000 * t.val + p.val, hlt⟩ rfl, right0_apply V c t k q]

/-- An index of the result array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row `r` of the result lies in the block of point `r / 5000`: the ten blocks tile the array. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hlt : (i 0).val / 5000 < cfg0.N := by rw [show cfg0.N = 10 from N_0]; omega
  obtain ⟨-, -, -, -, e4, e5⟩ := idx0 ⟨(i 0).val / 5000, hlt⟩
  refine ⟨⟨(i 0).val / 5000, hlt⟩, flush0_2 _, ?_⟩
  rw [mem_blk0]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 128 ≤ (i 1).val ∧ (i 1).val < win0_2.index ⟨(i 0).val / 5000, hlt⟩ (1 : Fin 2) * 128 + 128
    rw [e5]; omega

/-- After region 0 its result array is the product of its two operand arrays as the region found them. -/
theorem value0 (c : Dev nD) : (dat0 V c).arrAt 2 cfg0.N = HostSpec.dotRows (F := Ideal) (V c main_arg0) (V c main_arg3) :=
  (dat0 V c).arrAt_eq_of_cover 2 (HostSpec.dotRows (F := Ideal) (V c main_arg0) (V c main_arg3)) (fun t _ => flushed0 V c t) cover0

/-! ## Region 1: the second tiled product -/

/-- The printed index maps of region 1, decided over its ten grid points: the left factor's and the result's row block
    moves with the point, the right factor stays whole. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of the left factor's block at point `t` is row `5000 t + p` of the array. -/
theorem left1_apply (c : Dev nD) (t : Fin cfg1.N) (p : Fin 5000) (k : Fin 128) (R : Fin 50000) (hR : R.val = 5000 * t.val + p.val) :
    (iblk1 V c 0 t : Vec Ideal S5000x128 .f32) (ix2 p k) = (V c main_v49 : S50000x128.Idx → EReal) (ix2 R k) := by
  obtain ⟨e0, e1, -, -, -, -⟩ := idx1 t
  unfold iblk1
  rw [View.read_apply]
  show (V c main_v49 : S50000x128.Idx → EReal) _ = _
  refine congrArg (V c main_v49 : S50000x128.Idx → EReal) (funext fun a => Fin.ext ?_)
  match a with
  | ⟨0, _⟩ => show win1_0.index t (0 : Fin 2) * 5000 + 1 * p.val = R.val; omega
  | ⟨1, _⟩ => show win1_0.index t (1 : Fin 2) * 128 + 1 * k.val = k.val; omega

/-- The right factor's block at any point is the whole array. -/
theorem right1_apply (c : Dev nD) (t : Fin cfg1.N) (k : Fin 128) (q : Fin 128) :
    (iblk1 V c 1 t : Vec Ideal S128x128 .f32) (ix2 k q) = (V c main_arg5 : S128x128.Idx → EReal) (ix2 k q) := by
  obtain ⟨-, -, e2, e3, -, -⟩ := idx1 t
  unfold iblk1
  rw [View.read_apply]
  show (V c main_arg5 : S128x128.Idx → EReal) _ = _
  refine congrArg (V c main_arg5 : S128x128.Idx → EReal) (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- What point `t` writes back is rows `5000 t … 5000 t + 4999` of the product of the two arrays. -/
theorem flushed1 (c : Dev nD) (t : Fin cfg1.N) :
    (dat1 V c).flushed 2 t = ((cfg1.win 2).blk t).view.read (Elt Ideal) (HostSpec.dotRows (F := Ideal) (V c main_v49) (V c main_arg5)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨-, -, -, -, e4, e5⟩ := idx1 t
  have hN : t.val < 10 := lt_of_lt_of_eq t.isLt (show cfg1.N = 10 from N_1)
  funext j
  obtain ⟨p, q, rfl⟩ : ∃ (p : Fin 5000) (q : Fin 128), j = ix2 p q := ⟨j 0, j 1, eq_ix2 j⟩
  have hlt : 5000 * t.val + p.val < 50000 := by have := p.isLt; omega
  have hout : ((cfg1.win 2).blk t).view.emb (ix2 p q) = (ix2 (⟨5000 * t.val + p.val, hlt⟩ : Fin 50000) q : S50000x128.Idx) := by
    funext a; apply Fin.ext
    match a with
    | ⟨0, _⟩ => show win1_2.index t (0 : Fin 2) * 5000 + 1 * p.val = 5000 * t.val + p.val; omega
    | ⟨1, _⟩ => show win1_2.index t (1 : Fin 2) * 128 + 1 * q.val = q.val; omega
  show k1_pay1 (F := Ideal) (iblk1 V c 0 t) (iblk1 V c 1 t) (ix2 p q) = HostSpec.dotRows (F := Ideal) (V c main_v49) (V c main_arg5) (((cfg1.win 2).blk t).view.emb (ix2 p q))
  rw [hout, prodRows_apply]
  refine (Payload.k1_apply (iblk1 V c 0 t) (iblk1 V c 1 t) p q).trans ?_
  refine Finset.sum_congr rfl fun k _ => ?_
  rw [left1_apply V c t p k ⟨5000 * t.val + p.val, hlt⟩ rfl, right1_apply V c t k q]

/-- An index of the result array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v50).slice (win1_2.rect t)).set ↔ _
  rw [View.set_slice_whole, Rect.mem_set_unit]
  exact Iff.rfl

/-- Row `r` of the result lies in the block of point `r / 5000`: the ten blocks tile the array. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hlt : (i 0).val / 5000 < cfg1.N := by rw [show cfg1.N = 10 from N_1]; omega
  obtain ⟨-, -, -, -, e4, e5⟩ := idx1 ⟨(i 0).val / 5000, hlt⟩
  refine ⟨⟨(i 0).val / 5000, hlt⟩, flush1_2 _, ?_⟩
  rw [mem_blk1]
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hlt⟩ (1 : Fin 2) * 128 ≤ (i 1).val ∧ (i 1).val < win1_2.index ⟨(i 0).val / 5000, hlt⟩ (1 : Fin 2) * 128 + 128
    rw [e5]; omega

/-- After region 1 its result array is the product of its two operand arrays as the region found them. -/
theorem value1 (c : Dev nD) : (dat1 V c).arrAt 2 cfg1.N = HostSpec.dotRows (F := Ideal) (V c main_v49) (V c main_arg5) :=
  (dat1 V c).arrAt_eq_of_cover 2 (HostSpec.dotRows (F := Ideal) (V c main_v49) (V c main_arg5)) (fun t _ => flushed1 V c t) cover1

/-! ## Region 2: the last affine layer and its log-softmax, one grid point over whole arrays -/

/-- The printed index maps of region 2 at its one grid point: every block is the block at the origin. -/
theorem idx2 : ∀ t : Fin cfg2.N, win2_0.index t (0 : Fin 2) = 0 ∧ win2_0.index t (1 : Fin 2) = 0
    ∧ win2_1.index t (0 : Fin 2) = 0 ∧ win2_1.index t (1 : Fin 2) = 0 ∧ win2_2.index t (0 : Fin 1) = 0
    ∧ win2_3.index t (0 : Fin 2) = 0 ∧ win2_3.index t (1 : Fin 2) = 0 :=
  (by decide +kernel : ∀ t : Fin grid2.N, _)

/-- The pooled rows' block is the whole array. -/
theorem blk2_0 (c : Dev nD) (t : Fin cfg2.N) :
    (iblk2 V c 0 t : Vec Ideal S500x128 .f32) = (V c main_v70 : S500x128.Idx → EReal) := by
  obtain ⟨e0, e1, -, -, -, -, -⟩ := idx2 t
  funext y
  unfold iblk2
  rw [View.read_apply]
  show (V c main_v70 : S500x128.Idx → EReal) _ = _
  refine congrArg (V c main_v70 : S500x128.Idx → EReal) (funext fun a => Fin.ext ?_)
  match a with
  | ⟨0, _⟩ => show win2_0.index t (0 : Fin 2) * 500 + 1 * (y 0).val = (y 0).val; omega
  | ⟨1, _⟩ => show win2_0.index t (1 : Fin 2) * 128 + 1 * (y 1).val = (y 1).val; omega

/-- The class weights' block is the whole array. -/
theorem blk2_1 (c : Dev nD) (t : Fin cfg2.N) :
    (iblk2 V c 1 t : Vec Ideal S128x16 .f32) = (V c main_arg7 : S128x16.Idx → EReal) := by
  obtain ⟨-, -, e2, e3, -, -, -⟩ := idx2 t
  funext y
  unfold iblk2
  rw [View.read_apply]
  show (V c main_arg7 : S128x16.Idx → EReal) _ = _
  refine congrArg (V c main_arg7 : S128x16.Idx → EReal) (funext fun a => Fin.ext ?_)
  match a with
  | ⟨0, _⟩ => show win2_1.index t (0 : Fin 2) * 128 + 1 * (y 0).val = (y 0).val; omega
  | ⟨1, _⟩ => show win2_1.index t (1 : Fin 2) * 16 + 1 * (y 1).val = (y 1).val; omega

/-- The class bias's block is the whole vector. -/
theorem blk2_2 (c : Dev nD) (t : Fin cfg2.N) :
    (iblk2 V c 2 t : Vec Ideal S16 .f32) = (V c main_arg8 : S16.Idx → EReal) := by
  obtain ⟨-, -, -, -, e4, -, -⟩ := idx2 t
  funext y
  unfold iblk2
  rw [View.read_apply]
  show (V c main_arg8 : S16.Idx → EReal) _ = _
  refine congrArg (V c main_arg8 : S16.Idx → EReal) (funext fun a => Fin.ext ?_)
  match a with
  | ⟨0, _⟩ => show win2_2.index t (0 : Fin 1) * 16 + 1 * (y 0).val = (y 0).val; omega

/-- The result's block is the whole array: an index read through it is itself. -/
theorem emb2 (t : Fin cfg2.N) (j : S500x16.Idx) : ((cfg2.win 3).blk t).view.emb j = (j : S500x16.Idx) := by
  obtain ⟨-, -, -, -, -, e5, e6⟩ := idx2 t
  funext a; apply Fin.ext
  match a with
  | ⟨0, _⟩ => show win2_3.index t (0 : Fin 2) * 500 + 1 * (j 0).val = (j 0).val; omega
  | ⟨1, _⟩ => show win2_3.index t (1 : Fin 2) * 16 + 1 * (j 1).val = (j 1).val; omega

/-- What the one point writes back is the body's value of the three operand arrays. -/
theorem flushed2 (c : Dev nD) (t : Fin cfg2.N) :
    (dat2 V c).flushed 3 t = ((cfg2.win 3).blk t).view.read (Elt Ideal)
      (k2_pay1 (F := Ideal) (V c main_v70) (V c main_arg7) (V c main_arg8)) := by
  show (cfg2.win 3).cut (grid2.coords t) ((dat2 V c).after 3 t) = _
  rw [after2_3]
  unfold out2_3
  rw [View.canon_unit_zero hz]
  simp only [View.ld_unit_zero (S := S500x128) hz, View.ld_unit_zero (S := S128x16) hz, View.ld_unit_zero (S := S16) hz1]
  funext j
  show k2_pay1 (F := Ideal) (iblk2 V c 0 t) (iblk2 V c 1 t) (iblk2 V c 2 t) j
    = k2_pay1 (F := Ideal) (V c main_v70) (V c main_arg7) (V c main_arg8) (((cfg2.win 3).blk t).view.emb j)
  rw [blk2_0 V c t, blk2_1 V c t, blk2_2 V c t, emb2 t j]

/-- Every index of the result array is in the one point's block. -/
theorem cover2 (i : S500x16.Idx) : ∃ t : Fin cfg2.N, (cfg2.win 3).flush t = true ∧ i ∈ ((cfg2.win 3).blk t).view.set := by
  have hi0 : (i 0).val < 500 := (i 0).isLt
  have hi1 : (i 1).val < 16 := (i 1).isLt
  obtain ⟨-, -, -, -, -, e5, e6⟩ := idx2 t2_0
  refine ⟨t2_0, flush2_3 _, ?_⟩
  show i ∈ ((View.whole main_v71).slice (win2_3.rect t2_0)).set
  rw [View.set_slice_whole, Rect.mem_set_unit]
  intro a
  match a with
  | ⟨0, _⟩ =>
    show win2_3.index t2_0 (0 : Fin 2) * 500 ≤ (i 0).val ∧ (i 0).val < win2_3.index t2_0 (0 : Fin 2) * 500 + 500
    rw [e5]; omega
  | ⟨1, _⟩ =>
    show win2_3.index t2_0 (1 : Fin 2) * 16 ≤ (i 1).val ∧ (i 1).val < win2_3.index t2_0 (1 : Fin 2) * 16 + 16
    rw [e6]; omega

/-- After region 2 its result array is the body's value of its three operand arrays as the region found them. -/
theorem value2 (c : Dev nD) :
    (dat2 V c).arrAt 3 cfg2.N = k2_pay1 (F := Ideal) (V c main_v70) (V c main_arg7) (V c main_arg8) :=
  (dat2 V c).arrAt_eq_of_cover 3 _ (fun t _ => flushed2 V c t) cover2

end Cert.KernelIdeal.RegionValue

end
-- ==== Proof.KValue.lean ====
/-
  The idealized kernel's result array is the shared host-side network of its nine argument arrays.

  Reading the boundaries of the run from the end: the result is what region 2 leaves, the log-softmax of the affine layer of
  the pooled rows it finds; those are the pooling of the second graph convolution of what region 1 leaves, the dense
  product of the first convolution's output with the second weight matrix; and the first convolution takes what region 0
  leaves, the dense product of the node features with the first weight matrix. Each kernel region's value is the host's
  operation of the same name: a tiled product is the plain product, and the last body's row-wise log-softmax of
  `P · W + bias` is jax's log-softmax of the host's affine layer (both read at an entry as the same function of the row).
-/
import proofs.«159713_j84533546319965_1_alg».proof.Proof.KFold
import proofs.«159713_j84533546319965_1_alg».proof.Proof.Regions

set_option maxRecDepth 16384

noncomputable section

open scoped BigOperators

namespace Cert.KernelIdeal.KValue

open Cert.KernelIdeal Cert.KernelIdeal.Gen Idealize.ShloMosaic Idealize.ShloMosaic.TcCoe Idealize.SL.Sem Idealize.ShloMosaic.ValueIdx

/-- The last body's value is jax's log-softmax of the host's affine layer: at an entry both are the log-softmax of the
    row's logits `∑_q P_{r,q} W_{q,c} + bias_c`, the maximum folded from `-∞`. -/
theorem final_eq (P : FVec Ideal S500x128 .f32) (W : FVec Ideal S128x16 .f32) (b : FVec Ideal S16 .f32) :
    k2_pay1 (F := Ideal) P W b = HostSpec.logSoftmax (HostSpec.logits P W b) := by
  funext i
  obtain ⟨r, q, rfl⟩ : ∃ (r : Fin 500) (q : Fin 16), i = ix2 r q := ⟨i 0, i 1, eq_ix2 i⟩
  have hR : HostSpec.logSoftmax (HostSpec.logits P W b) (ix2 r q)
      = LibLogSoftmax.rowLogSoftmax (Ideal.ofBits .f32 0xFF800000#32) (fun c => HostSpec.logits P W b (ix2 r c)) q :=
    LibLogSoftmax.host_apply (HostSpec.logits P W b) 0xFF800000#32 Cert.ReferenceIdeal.Gen.reducesTo_S500x16_S500_d1
      reduces_S500x16_S500 Cert.ReferenceIdeal.Gen.h_S_ Cert.ReferenceIdeal.Gen.bcast_S_S500
      Cert.ReferenceIdeal.Gen.bcast_S500_S500x1_0 Cert.ReferenceIdeal.Gen.bcast_S500x1_S500x16_0_1 r q
  rw [Payload.k2_apply, hR]
  refine congrArg (fun L => LibLogSoftmax.rowLogSoftmax (Ideal.ofBits .f32 0xFF800000#32) L q) (funext fun c => ?_)
  exact (LibRowOps.host_affine_apply Cert.ReferenceIdeal.dot_S500x128_S128x16_S500x16_1_0_0_1_n_n rfl none P W b
    Cert.ReferenceIdeal.Gen.bcast_S16_S1x16_1 Cert.ReferenceIdeal.Gen.bcast_S1x16_S500x16_0_1 r c).symm

variable (m : (ℓ : Loc nD τ sig) → Buf (Elt Ideal) ℓ) (ρ : Dev nD → PrngReg) (c : Dev nD)

/-- Region 0 leaves the dense product of the node features with the first weight matrix. -/
theorem first_product : W4 m ρ c (Proc.devRef .tc main_v32) = HostSpec.dotRows (F := Ideal) (m ((c : Thread nD τ).loc main_arg0)) (m ((c : Thread nD τ).loc main_arg3)) := by
  refine (show W4 m ρ c (Proc.devRef .tc main_v32) = (dat0 (V3 m ρ) c).arrAt 2 cfg0.N from W4_arr m ρ c 2).trans ?_
  refine (RegionValue.value0 (V3 m ρ) c).trans ?_
  rw [show V3 m ρ c main_arg0 = (m ((c : Thread nD τ).loc main_arg0)) from Fold.W3_of m ρ c main_arg0 (by decide) (by decide) (by decide),
    show V3 m ρ c main_arg3 = (m ((c : Thread nD τ).loc main_arg3)) from Fold.W3_of m ρ c main_arg3 (by decide) (by decide) (by decide)]

/-- Region 1 finds the first graph convolution's output. -/
theorem first_layer : W6 m ρ c (Proc.devRef .tc main_v49)
    = HostSpec.layer (F := Ideal) (HostSpec.dotRows (F := Ideal) (m ((c : Thread nD τ).loc main_arg0)) (m ((c : Thread nD τ).loc main_arg3))) (HostSpec.srcOf (m ((c : Thread nD τ).loc main_arg1))) (HostSpec.dstOf (m ((c : Thread nD τ).loc main_arg1))) (HostSpec.norm (F := Ideal) (m ((c : Thread nD τ).loc main_arg1))) (m ((c : Thread nD τ).loc main_arg4)) := by
  refine (Fold.mid1 (W4 m ρ c)).trans ?_
  rw [first_product m ρ c, Fold.W4_src m ρ c, Fold.W4_dst m ρ c, Fold.W4_norm m ρ c, Fold.W4_arg4 m ρ c]

/-- Region 1 leaves the dense product of that output with the second weight matrix. -/
theorem second_product : W7 m ρ c (Proc.devRef .tc main_v50)
    = HostSpec.dotRows (F := Ideal) (HostSpec.layer (F := Ideal) (HostSpec.dotRows (F := Ideal) (m ((c : Thread nD τ).loc main_arg0)) (m ((c : Thread nD τ).loc main_arg3))) (HostSpec.srcOf (m ((c : Thread nD τ).loc main_arg1))) (HostSpec.dstOf (m ((c : Thread nD τ).loc main_arg1))) (HostSpec.norm (F := Ideal) (m ((c : Thread nD τ).loc main_arg1))) (m ((c : Thread nD τ).loc main_arg4))) (m ((c : Thread nD τ).loc main_arg5)) := by
  refine (show W7 m ρ c (Proc.devRef .tc main_v50) = (dat1 (V6 m ρ) c).arrAt 2 cfg1.N from W7_arr m ρ c 2).trans ?_
  refine (RegionValue.value1 (V6 m ρ) c).trans ?_
  rw [show V6 m ρ c main_v49 = _ from first_layer m ρ c,
    show V6 m ρ c main_arg5 = (m ((c : Thread nD τ).loc main_arg5)) from Fold.W6_arg m ρ c main_arg5 (by decide) (by decide) (by decide) (by decide) (by decide) (by decide)]

/-- Region 2 finds the pooled rows of the second graph convolution's output. -/
theorem pooled : W10 m ρ c (Proc.devRef .tc main_v70)
    = HostSpec.pool (F := Ideal) (HostSpec.layer (F := Ideal) (HostSpec.dotRows (F := Ideal) (HostSpec.layer (F := Ideal) (HostSpec.dotRows (F := Ideal) (m ((c : Thread nD τ).loc main_arg0)) (m ((c : Thread nD τ).loc main_arg3))) (HostSpec.srcOf (m ((c : Thread nD τ).loc main_arg1))) (HostSpec.dstOf (m ((c : Thread nD τ).loc main_arg1)))
        (HostSpec.norm (F := Ideal) (m ((c : Thread nD τ).loc main_arg1))) (m ((c : Thread nD τ).loc main_arg4))) (m ((c : Thread nD τ).loc main_arg5))) (HostSpec.srcOf (m ((c : Thread nD τ).loc main_arg1))) (HostSpec.dstOf (m ((c : Thread nD τ).loc main_arg1))) (HostSpec.norm (F := Ideal) (m ((c : Thread nD τ).loc main_arg1))) (m ((c : Thread nD τ).loc main_arg6))) (m ((c : Thread nD τ).loc main_arg2)) := by
  refine (Fold.mid2 (W7 m ρ c)).trans ?_
  rw [second_product m ρ c, Fold.W7_src m ρ c, Fold.W7_dst m ρ c, Fold.W7_norm m ρ c,
    Fold.W7_arg m ρ c main_arg6 (by decide) (by decide) (by decide) (by decide) (by decide) (by decide) (by decide),
    Fold.W7_arg m ρ c main_arg2 (by decide) (by decide) (by decide) (by decide) (by decide) (by decide) (by decide)]

/-- An argument region 2 reads is, at its entry, as launched. -/
theorem W10_arg (r : Ref sig .tc) (h0 : r ∉ Fold.written0) (h1 : r ∉ Fold.written0_1) (h2 : r ∉ Fold.written0_2)
    (hr0 : ∀ w, Pipeline.arrRef spec0 w ≠ r) (h3 : r ∉ Fold.written1) (h4 : r ∉ Fold.written1_1)
    (hr1 : ∀ w, Pipeline.arrRef spec1 w ≠ r) (h5 : r ∉ Fold.written2) (h6 : r ∉ Fold.written2_1) (h7 : r ∉ Fold.written2_2) :
    W10 m ρ c (Proc.devRef .tc r) = m ((c : Thread nD τ).loc r) :=
  (Fold.W10_of m ρ c r h5 h6 h7).trans (Fold.W7_arg m ρ c r h0 h1 h2 hr0 h3 h4 hr1)

/-- THE RESULT ARRAY: the network of the nine arguments as launched. -/
theorem result_eq : W11 m ρ c (Proc.devRef .tc main_v71) = HostSpec.refValue (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (show W11 m ρ c (Proc.devRef .tc main_v71) = (dat2 (V10 m ρ) c).arrAt 3 cfg2.N from W11_arr m ρ c 3).trans ?_
  refine (RegionValue.value2 (V10 m ρ) c).trans ?_
  refine (final_eq _ _ _).trans ?_
  rw [show V10 m ρ c main_v70 = _ from pooled m ρ c,
    show V10 m ρ c main_arg7 = (m ((c : Thread nD τ).loc main_arg7)) from W10_arg m ρ c main_arg7 (by decide) (by decide) (by decide) (by decide) (by decide) (by decide) (by decide) (by decide) (by decide) (by decide),
    show V10 m ρ c main_arg8 = (m ((c : Thread nD τ).loc main_arg8)) from W10_arg m ρ c main_arg8 (by decide) (by decide) (by decide) (by decide) (by decide) (by decide) (by decide) (by decide) (by decide) (by decide)]
  rfl

end Cert.KernelIdeal.KValue

end
-- ==== Proof.lean ====
/-
  The certificate of a two-layer graph convolution network with add-pooling and a log-softmax head, its three dense stages
  run as kernels, against the same network written with jnp: the claims' conjunction.

  Both programs compute, from node features `x`, an edge list, graph numbers and the weights,
  `log_softmax(pool(relu(Â · relu(Â · x W₁ + b₁) W₂ + b₂)) Wlin + blin)`, where `Â` is the adjacency with self loops scaled by
  `deg^(-1/2)` at both ends, applied as a gather of rows, a scaling by the edge weight and a scatter-add. The gathers, the
  scatters, the degree computation, the bias additions and the clamps are host operations in both programs, the same ones in
  the same order. The kernel differs in three places, none of which changes a value on the extended reals: the two dense
  products `x W₁` and `h W₂` are tiled over ten blocks of 5000 rows (each block the plain product of its rows; rounding the
  factors to bf16 is the identity there), the reference recomputes the edge weights for the second layer where the kernel
  reuses them, and the head `log_softmax(p Wlin + blin)` is one kernel body whose maximum, shift, exponential, sum and
  logarithm are the ones jax's log_softmax performs. So both results are one function, `HostSpec.refValue`, of the nine
  arguments; no law of the extended reals beyond reading each operation at an index is needed, and the precondition is
  never opened.

  The frames of the two kernel programs are the generated ones. The reference's frame and value come from its run read back
  as one composed term (Proof/RefRun.lean), shown to be `HostSpec.refValue` by unfolding (Proof/RefValue.lean). The kernel's
  value is read off its run segment by segment (Proof/KRun.lean, Proof/KFold.lean, Proof/Regions.lean, Proof/KValue.lean).
  The idealization changed no operation, so `preserves` asks nothing.
-/
import proofs.«159713_j84533546319965_1_alg».proof.Defs
import proofs.«159713_j84533546319965_1_alg».proof.Proof.Gen.Kernel
import proofs.«159713_j84533546319965_1_alg».proof.Proof.Gen.Kernel.Skeleton
import proofs.«159713_j84533546319965_1_alg».proof.Proof.Gen.Kernel.Launch
import proofs.«159713_j84533546319965_1_alg».proof.Proof.Gen.Kernel.Points
import proofs.«159713_j84533546319965_1_alg».proof.Proof.Gen.Kernel.Frame
import proofs.«159713_j84533546319965_1_alg».proof.Proof.Gen.KernelIdeal
import proofs.«159713_j84533546319965_1_alg».proof.Proof.Gen.KernelIdeal.Skeleton
import proofs.«159713_j84533546319965_1_alg».proof.Proof.Gen.KernelIdeal.Launch
import proofs.«159713_j84533546319965_1_alg».proof.Proof.Gen.KernelIdeal.Points
import proofs.«159713_j84533546319965_1_alg».proof.Proof.Gen.KernelIdeal.Frame
import proofs.«159713_j84533546319965_1_alg».proof.Proof.Gen.ReferenceIdeal
import proofs.«159713_j84533546319965_1_alg».proof.Proof.Gen.Pre_finite_inputs
import proofs.«159713_j84533546319965_1_alg».proof.Proof.RefRun
import proofs.«159713_j84533546319965_1_alg».proof.Proof.RefValue
import proofs.«159713_j84533546319965_1_alg».proof.Proof.KRun
import proofs.«159713_j84533546319965_1_alg».proof.Proof.KValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The reference runs and leaves its arguments as launched: its run read back, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the network's value of those arguments. -/
theorem algebraic : Cert.algebraic_KernelIdeal_ReferenceIdeal := by
  intro m ρ m' ρ' _ hagree
  refine ⟨fun c => Cert.HostSpec.refValue (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.KValue.result_eq m ρ c), (h c).2⟩)
      (Cert.KernelIdeal.RunValue.run_fold (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8⟩ := hagree c
    rw [Cert.ReferenceIdeal.RefValue.res_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
